-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S65536x256 : Shape := ⟨2, ![65536, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S65536x256 : S_.BroadcastsInDim S65536x256 (![] : Fin 0 → Fin S65536x256.rank)
  reducesTo_S65536x256_S_d0_1 : S65536x256.ReducesTo [0, 1] S_

variable [Facts]

def fn_part1 {F : FTy → Type} [FloatOps F] (main_arg4 : FVec F S256 .f32) (main_arg5 : FVec F S65536x256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S65536x256 .f32 := Host.absf main_arg5
  let main_cst_8 : FVec F S_ .f32 := constant S_ .f32 0x7F800000#32
  let main_v25 : FVec F S65536x256 .f32 := broadcastInDim S65536x256 ![] bcast_S_S65536x256 main_cst_8
  let main_v26 : IVec S65536x256 1 := cmpf .olt main_v24 main_v25
  let main_c_9 : IVec S_ 1 := constantI S_ 1 1#1
  let main_v27 : IVec S_ 1 := (fun x v => Host.reduce IntOp.andi x v reducesTo_S65536x256_S_d0_1 h_S_) main_v26 main_c_9
  let main_v28 : IVec S_ 1 := andi main_v23 main_v27
  main_v28

def fn {F : FTy → Type} [FloatOps F] (main_arg0 : FVec F S4096x256 .f32) (main_arg1 : FVec F S256x1024 .f32) (main_arg2 : FVec F S1024 .f32) (main_arg3 : FVec F S1024x256 .f32) (main_arg4 : FVec F S256 .f32) (main_arg5 : FVec F S65536x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S4096x256 : Shape := ⟨2, ![4096, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S65536x256 : Shape := ⟨2, ![65536, 256]⟩
abbrev S_ : Shape := ⟨0, ![]⟩
abbrev S65536 : Shape := ⟨1, ![65536]⟩
abbrev S1x65536 : Shape := ⟨2, ![1, 65536]⟩
abbrev S4096x1 : Shape := ⟨2, ![4096, 1]⟩
abbrev S2048x256 : Shape := ⟨2, ![2048, 256]⟩
abbrev S1x1024 : Shape := ⟨2, ![1, 1024]⟩
abbrev S2048x1 : Shape := ⟨2, ![2048, 1]⟩
abbrev S2048x1024 : Shape := ⟨2, ![2048, 1024]⟩
abbrev S1x256 : Shape := ⟨2, ![1, 256]⟩
abbrev S2048 : Shape := ⟨1, ![2048]⟩

abbrev nBuf : Space → Nat
  | .hbm => 13
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S65536x256, .f32⟩
  | .hbm, ⟨6, _⟩ => ⟨S65536x256, .f32⟩
  | .hbm, ⟨7, _⟩ => ⟨S_, .f32⟩
  | .hbm, ⟨8, _⟩ => ⟨S65536, .f32⟩
  | .hbm, ⟨9, _⟩ => ⟨S1x65536, .f32⟩
  | .hbm, ⟨10, _⟩ => ⟨S65536x256, .bf16⟩
  | .hbm, ⟨11, _⟩ => ⟨S4096x1, .f32⟩
  | .hbm, ⟨12, _⟩ => ⟨S4096x256, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S1024, .f32⟩
  | .local _ .vmem, ⟨4, _⟩ => ⟨S1024x256, .f32⟩
  | .local _ .vmem, ⟨5, _⟩ => ⟨S256, .f32⟩
  | .local _ .vmem, ⟨6, _⟩ => ⟨S1024x256, .bf16⟩
  | .local _ .vmem, ⟨7, _⟩ => ⟨S1024x256, .bf16⟩
  | .local _ .vmem, ⟨8, _⟩ => ⟨S1x1024, .f32⟩
  | .local _ .vmem, ⟨9, _⟩ => ⟨S1x1024, .f32⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .bf16⟩
  | .local _ .vmem, ⟨16, _⟩ => ⟨S2048x1, .f32⟩
  | .local _ .vmem, ⟨17, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v23 : BitVec 1 := Scalar.cmpi .eq arg1 c63_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  reducesTo_S65536x256_S65536_d1 : S65536x256.ReducesTo [1] S65536
  h_S_ : 0 < S_.numel
  bcast_S65536_S1x65536_1 : S65536.BroadcastsInDim S1x65536 (![1] : Fin 1 → Fin S1x65536.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1024x256_S1024x256_0_0 : ∀ a, (![0, 0] : Fin 2 → Nat) a + S1024x256.size a ≤ S1024x256.size a
  h_S1024x256 : 0 < S1024x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  reduces_S2048x1024_S2048 : S2048x1024.Reduces [1] S2048
  dot_S2048x256_S256x1024_S2048x1024_1_0_0_1_n_n_wf : DotDims.WF S2048x256 S256x1024 S2048x1024 [1] [0] [0] [1] [] []
  dot_S2048x1024_S1024x256_S2048x256_1_0_0_1_n_n_wf : DotDims.WF S2048x1024 S1024x256 S2048x256 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .bf16 = 32 ∨ (Rect.block (s := S65536x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x65536.size a
  hwx0_6 : ∀ i : grid0.Coords, EltTy.bits .f32 = 32 ∨ (Rect.block (s := S1x65536) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S4096x1.size a
  hwx0_7 : ∀ i : grid0.Coords, EltTy.bits .f32 = 32 ∨ (Rect.block (s := S4096x1) S2048x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S4096x256.size a
  hwx0_8 : ∀ i : grid0.Coords, EltTy.bits .f32 = 32 ∨ (Rect.block (s := S4096x256) S2048x256.size (cc0_transform_8 i) (hinb0_8 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S2048x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x256 : Shape := ⟨2, ![4096, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S65536x256 : Shape := ⟨2, ![65536, 256]⟩
abbrev S4096x1024 : Shape := ⟨2, ![4096, 1024]⟩
abbrev S1x1024 : Shape := ⟨2, ![1, 1024]⟩
abbrev S_ : Shape := ⟨0, ![]⟩
abbrev S1x256 : Shape := ⟨2, ![1, 256]⟩
abbrev S4096 : Shape := ⟨1, ![4096]⟩
abbrev S4096x1 : Shape := ⟨2, ![4096, 1]⟩
abbrev S65536 : Shape := ⟨1, ![65536]⟩
abbrev S1x65536 : Shape := ⟨2, ![1, 65536]⟩
abbrev S4096x65536 : Shape := ⟨2, ![4096, 65536]⟩
abbrev S256x65536 : Shape := ⟨2, ![256, 65536]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S65536x256, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S65536x256, .f32⟩
  | .hbm, ⟨22, _⟩ => ⟨S_, .f32⟩
  | .hbm, ⟨23, _⟩ => ⟨S65536, .f32⟩
  | .hbm, ⟨24, _⟩ => ⟨S1x65536, .f32⟩
  | .hbm, ⟨25, _⟩ => ⟨S4096x65536, .f32⟩
  | .hbm, ⟨26, _⟩ => ⟨S4096x65536, .f32⟩
  | .hbm, ⟨27, _⟩ => ⟨S4096x65536, .f32⟩
  | .hbm, ⟨28, _⟩ => ⟨S256x65536, .f32⟩
  | .hbm, ⟨29, _⟩ => ⟨S4096x65536, .f32⟩
  | .hbm, ⟨30, _⟩ => ⟨S_, .f32⟩
  | .hbm, ⟨31, _⟩ => ⟨S4096x65536, .f32⟩
  | .hbm, ⟨32, _⟩ => ⟨S4096x65536, .f32⟩
  | .hbm, ⟨33, _⟩ => ⟨S4096x65536, .f32⟩
  | .hbm, ⟨34, _⟩ => ⟨S_, .f32⟩
  | .hbm, ⟨35, _⟩ => ⟨S4096x65536, .f32⟩
  | .hbm, ⟨36, _⟩ => ⟨S4096x65536, .f32⟩
  | .hbm, ⟨37, _⟩ => ⟨S4096x65536, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S65536x256_S65536_d1 : S65536x256.ReducesTo [1] S65536
  bcast_S65536_S1x65536_1 : S65536.BroadcastsInDim S1x65536 (![1] : Fin 1 → Fin S1x65536.rank)
  bcast_S4096x1_S4096x65536_0_1 : S4096x1.BroadcastsInDim S4096x65536 (![0, 1] : Fin 2 → Fin S4096x65536.rank)
  bcast_S1x65536_S4096x65536_0_1 : S1x65536.BroadcastsInDim S4096x65536 (![0, 1] : Fin 2 → Fin S4096x65536.rank)
  transposes_S65536x256_S256x65536_1_0 : S65536x256.Transposes [1, 0] S256x65536
  bcast_S_S4096x65536 : S_.BroadcastsInDim S4096x65536 (![] : Fin 0 → Fin S4096x65536.rank)
  reducesTo_S4096x65536_S4096_d1 : S4096x65536.ReducesTo [1] S4096
  dot_S4096x256_S256x1024_S4096x1024_1_0_0_1_n_n_wf : DotDims.WF S4096x256 S256x1024 S4096x1024 [1] [0] [0] [1] [] []
  dot_S4096x1024_S1024x256_S4096x256_1_0_0_1_n_n_wf : DotDims.WF S4096x1024 S1024x256 S4096x256 [1] [0] [0] [1] [] []
  dot_S4096x256_S256x65536_S4096x65536_1_0_0_1_n_n_wf : DotDims.WF S4096x256 S256x65536 S4096x65536 [1] [0] [0] [1] [] []

variable [Facts₀]

def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x65536_S4096x65536_1_0_0_1_n_n : DotDims S4096x256 S256x65536 S4096x65536 where
  lhsContracting := [1]
  rhsContracting := [0]
  lhsNonContracting := [0]
  rhsNonContracting := [1]
  lhsBatch := []
  rhsBatch := []
  wf := dot_S4096x256_S256x65536_S4096x65536_1_0_0_1_n_n_wf

class Facts : Prop extends Facts₀ where

variable [Facts]
-- ==== Proof.Pieces.lean ====
/-
  What the kernel body leaves in each buffer, case by case, as the body's pure terms of what it loaded.

  The body has three cases. At the first point of a run of 64 (memory block 0) it computes the encoding of its
  batch block, stores it in two formats and stores its rows' squared norms, resets the running minimum to +∞ and
  then takes the first block's step of the minimum. At a middle point it only takes one more step over what the
  point before left. At the last point it takes the last step, then stores the closing map of the minimum as the
  score block and copies the stored encoding out. Each lemma reads one buffer's final contents: the covering
  store's value, whose loads read whole buffers (or, after a store in the same body, the value just stored).
-/
import proofs.«118759_j55087250538839_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]
variable (c : Dev nD) (i : grid0.Coords) (arg2 : Memref sig .tc .vmem S2048x256 .f32) (harg2 : arg2.IsWhole) (arg3 : Memref sig .tc .vmem S256x1024 .f32) (harg3 : arg3.IsWhole) (arg4 : Memref sig .tc .vmem S1024 .f32) (harg4 : arg4.IsWhole) (arg5 : Memref sig .tc .vmem S1024x256 .f32) (harg5 : arg5.IsWhole) (arg6 : Memref sig .tc .vmem S256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S2048x1 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x1 .f32) (harg13 : arg13.IsWhole) (arg14 : Memref sig .tc .vmem S2048x1 .f32) (harg14 : arg14.IsWhole)
variable (x0 : Vec F S2048x256 .f32) (x1 : Vec F S256x1024 .f32) (x2 : Vec F S1024 .f32) (x3 : Vec F S1024x256 .f32) (x4 : Vec F S256 .f32) (x5 : Vec F S1024x256 .bf16) (x6 : Vec F S1x1024 .f32)
variable (xs0 : Vec F S2048x256 .f32) (xs1 : Vec F S2048x256 .bf16) (xs2 : Vec F S2048x1 .f32) (xs3 : Vec F S2048x1 .f32)

theorem hz1 : (![0] : Fin 1 → Nat) = fun _ => 0 := funext fun a => by fin_cases a <;> rfl

theorem hz : (![0, 0] : Fin 2 → Nat) = fun _ => 0 := funext fun a => by fin_cases a <;> rfl

/-- At a first point of a run the body leaves the encoding of the batch block in the first scratch. -/
theorem soutA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay4 x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  rw [View.canon_unit_zero hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz, View.ld_unit_zero (S := S1024) hz1, View.ld_unit_zero (S := S256) hz1]

/-- … the same encoding, in the narrower format, in the second scratch. -/
theorem soutA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay5 x0 x1 x2 x3 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz, View.ld_unit_zero (S := S1024) hz1, View.ld_unit_zero (S := S256) hz1]

/-- … its rows' squared norms in the third scratch. -/
theorem soutA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay6 x0 x1 x2 x3 x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz, View.ld_unit_zero (S := S1024) hz1, View.ld_unit_zero (S := S256) hz1]

/-- … and in the fourth scratch the running minimum after the first memory block: the block's step taken from the
    reset value, over the encoding and the norms the same point has just stored. -/
theorem soutA3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay1 x5 (k0_pay5 x0 x1 x2 x3 x4) (k0_pay6 x0 x1 x2 x3 x4) x6 k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S2048x1) hz, View.readCov_unit_zero (S := S2048x256) _ hz,
    View.readCov_unit_zero (S := S2048x1) _ hz, View.readCov_unit_zero (S := S2048x1) _ hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz, View.ld_unit_zero (S := S1024) hz1, View.ld_unit_zero (S := S256) hz1]

/-- At a middle point the running minimum takes one more block's step over what the point before left. -/
theorem soutB3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay1 x5 xs1 xs2 x6 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_B
  dsimp only
  rw [View.canon_unit_zero hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz]

/-- At a last point of a run the running minimum takes its last step … -/
theorem soutC3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay1 x5 xs1 xs2 x6 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz]

/-- … the score block is the closing map of that final minimum … -/
theorem outC7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = k0_pay2 (k0_pay1 x5 xs1 xs2 x6 xs3) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  sl_unfold_words
  rw [View.canon_unit_zero hz, View.readCov_unit_zero (S := S2048x1) _ hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz]

/-- … and the encoding block is the first scratch as the run's first point left it. -/
theorem outC8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3 = xs0 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 xs3)]
  unfold kernelRun0_C
  dsimp only
  rw [View.canon_unit_zero hz]
  simp only [View.readAt_eq_ld, harg2.read_unread, harg3.read_unread, harg4.read_unread, harg5.read_unread, harg6.read_unread, harg7.read_unread, harg8.read_unread, harg11.read_unread, harg12.read_unread, harg13.read_unread, harg14.read_unread, View.ld_unit_zero (S := S1024x256) hz, View.ld_unit_zero (S := S2048x256) hz, View.ld_unit_zero (S := S2048x1) hz, View.ld_unit_zero (S := S1x1024) hz, View.ld_unit_zero (S := S256x1024) hz]

end Cert.KernelIdeal.Pieces
end
-- ==== Proof.Steps.lean ====
/-
  The contents of the two output blocks and the four carried scratch buffers after each grid point, point over
  point: at the first point of a run of 64 each scratch is a pure term of the point's input blocks; at the later
  points the first three scratch buffers are what the point before left and the running minimum takes one more
  step over it; at the last point of the run the score block is the closing map of the final minimum and the
  encoding block is the stored encoding.
-/
import proofs.«118759_j55087250538839_2_alg».proof.Proof.Gen.KernelIdeal.Frame
import proofs.«118759_j55087250538839_2_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ) (c : Dev nD)

/-- What the point before `t` left (at the grid's first point: that point itself, never consulted). -/
abbrev prev (t : Fin cfg0.N) := outsAt0 m c (t.val - 1) (Nat.lt_of_le_of_lt (Nat.sub_le _ _) t.isLt)

/-! ## The first point of a run -/

theorem first_enc (t : Fin cfg0.N) (h0 : t.val % 64 = 0) (h1 : ¬t.val % 64 = 63) :
    (outsAt0 m c t.val t.isLt).2.2.1 = k0_pay4 (iblk m c 0 t) (iblk m c 1 t) (iblk m c 2 t) (iblk m c 3 t) (iblk m c 4 t) := by
  rw [outsAt0_A m c t h0 h1]
  dsimp only
  exact Pieces.soutA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

theorem first_encNarrow (t : Fin cfg0.N) (h0 : t.val % 64 = 0) (h1 : ¬t.val % 64 = 63) :
    (outsAt0 m c t.val t.isLt).2.2.2.1 = k0_pay5 (iblk m c 0 t) (iblk m c 1 t) (iblk m c 2 t) (iblk m c 3 t) (iblk m c 4 t) := by
  rw [outsAt0_A m c t h0 h1]
  dsimp only
  exact Pieces.soutA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

theorem first_norms (t : Fin cfg0.N) (h0 : t.val % 64 = 0) (h1 : ¬t.val % 64 = 63) :
    (outsAt0 m c t.val t.isLt).2.2.2.2.1 = k0_pay6 (iblk m c 0 t) (iblk m c 1 t) (iblk m c 2 t) (iblk m c 3 t) (iblk m c 4 t) := by
  rw [outsAt0_A m c t h0 h1]
  dsimp only
  exact Pieces.soutA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

theorem first_min (t : Fin cfg0.N) (h0 : t.val % 64 = 0) (h1 : ¬t.val % 64 = 63) :
    (outsAt0 m c t.val t.isLt).2.2.2.2.2
      = k0_pay1 (iblk m c 5 t) (k0_pay5 (iblk m c 0 t) (iblk m c 1 t) (iblk m c 2 t) (iblk m c 3 t) (iblk m c 4 t)) (k0_pay6 (iblk m c 0 t) (iblk m c 1 t) (iblk m c 2 t) (iblk m c 3 t) (iblk m c 4 t)) (iblk m c 6 t) k0_pay7 := by
  rw [outsAt0_A m c t h0 h1]
  dsimp only
  exact Pieces.soutA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

/-! ## A middle point -/

theorem mid_enc (t : Fin cfg0.N) (h0 : ¬t.val % 64 = 0) (h1 : ¬t.val % 64 = 63) :
    (outsAt0 m c t.val t.isLt).2.2.1 = (prev m c t).2.2.1 := by
  rw [outsAt0_B m c t h0 h1]; rfl

theorem mid_encNarrow (t : Fin cfg0.N) (h0 : ¬t.val % 64 = 0) (h1 : ¬t.val % 64 = 63) :
    (outsAt0 m c t.val t.isLt).2.2.2.1 = (prev m c t).2.2.2.1 := by
  rw [outsAt0_B m c t h0 h1]; rfl

theorem mid_norms (t : Fin cfg0.N) (h0 : ¬t.val % 64 = 0) (h1 : ¬t.val % 64 = 63) :
    (outsAt0 m c t.val t.isLt).2.2.2.2.1 = (prev m c t).2.2.2.2.1 := by
  rw [outsAt0_B m c t h0 h1]; rfl

theorem mid_min (t : Fin cfg0.N) (h0 : ¬t.val % 64 = 0) (h1 : ¬t.val % 64 = 63) :
    (outsAt0 m c t.val t.isLt).2.2.2.2.2
      = k0_pay1 (iblk m c 5 t) (prev m c t).2.2.2.1 (prev m c t).2.2.2.2.1 (iblk m c 6 t) (prev m c t).2.2.2.2.2 := by
  rw [outsAt0_B m c t h0 h1]
  dsimp only
  exact Pieces.soutB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (prev m c t).2.2.1 (prev m c t).2.2.2.1 (prev m c t).2.2.2.2.1 (prev m c t).2.2.2.2.2 (fun h => h0 ((hcond0_0 t).mp h)) (fun h => h1 ((hcond0_1 t).mp h))

/-! ## The last point of a run -/

theorem last_enc (t : Fin cfg0.N) (h0 : ¬t.val % 64 = 0) (h1 : t.val % 64 = 63) :
    (outsAt0 m c t.val t.isLt).2.2.1 = (prev m c t).2.2.1 := by
  rw [outsAt0_C m c t h0 h1]; rfl

theorem last_encNarrow (t : Fin cfg0.N) (h0 : ¬t.val % 64 = 0) (h1 : t.val % 64 = 63) :
    (outsAt0 m c t.val t.isLt).2.2.2.1 = (prev m c t).2.2.2.1 := by
  rw [outsAt0_C m c t h0 h1]; rfl

theorem last_norms (t : Fin cfg0.N) (h0 : ¬t.val % 64 = 0) (h1 : t.val % 64 = 63) :
    (outsAt0 m c t.val t.isLt).2.2.2.2.1 = (prev m c t).2.2.2.2.1 := by
  rw [outsAt0_C m c t h0 h1]; rfl

theorem last_min (t : Fin cfg0.N) (h0 : ¬t.val % 64 = 0) (h1 : t.val % 64 = 63) :
    (outsAt0 m c t.val t.isLt).2.2.2.2.2
      = k0_pay1 (iblk m c 5 t) (prev m c t).2.2.2.1 (prev m c t).2.2.2.2.1 (iblk m c 6 t) (prev m c t).2.2.2.2.2 := by
  rw [outsAt0_C m c t h0 h1]
  dsimp only
  exact Pieces.soutC3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (prev m c t).2.2.1 (prev m c t).2.2.2.1 (prev m c t).2.2.2.2.1 (prev m c t).2.2.2.2.2 (fun h => h0 ((hcond0_0 t).mp h)) ((hcond0_1 t).mpr h1)

theorem last_score (t : Fin cfg0.N) (h0 : ¬t.val % 64 = 0) (h1 : t.val % 64 = 63) :
    (outsAt0 m c t.val t.isLt).1
      = k0_pay2 (k0_pay1 (iblk m c 5 t) (prev m c t).2.2.2.1 (prev m c t).2.2.2.2.1 (iblk m c 6 t) (prev m c t).2.2.2.2.2) := by
  rw [outsAt0_C m c t h0 h1]
  dsimp only
  exact Pieces.outC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (prev m c t).2.2.1 (prev m c t).2.2.2.1 (prev m c t).2.2.2.2.1 (prev m c t).2.2.2.2.2 (fun h => h0 ((hcond0_0 t).mp h)) ((hcond0_1 t).mpr h1)

theorem last_encOut (t : Fin cfg0.N) (h0 : ¬t.val % 64 = 0) (h1 : t.val % 64 = 63) :
    (outsAt0 m c t.val t.isLt).2.1 = (prev m c t).2.2.1 := by
  rw [outsAt0_C m c t h0 h1]
  dsimp only
  exact Pieces.outC8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (prev m c t).2.2.1 (prev m c t).2.2.2.1 (prev m c t).2.2.2.2.1 (prev m c t).2.2.2.2.2 (fun h => h0 ((hcond0_0 t).mp h)) ((hcond0_1 t).mpr h1)

end Cert.KernelIdeal.Steps

end
-- ==== Proof.Spec.lean ====
/-
  The two results as functions of the six argument arrays, index by index, over the extended reals.

  A batch row `i` of `X` is encoded by two affine layers with a clamp at zero between them:
  `hidden i h = max (∑ d, X i d · W1 d h + b1 h) 0` and `enc i k = ∑ h, hidden i h · W2 h k + b2 k`.
  Its squared distance to a memory row `q` is written in the expanded form
  `‖enc i‖² + ‖M q‖² − 2 · ⟨enc i, M q⟩`, and the score of the row is
  `tanh (√ (max (min over q of that squared distance) 0))`, the minimum taken from `+∞`.
  The float literals `0`, `2` and `+∞` stay the words both programs print.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (a b : ℕ) := (⟨2, ![a, b]⟩ : Shape).Idx → EReal
/-- A rank-1 array of extended reals. -/
abbrev Arr1 (a : ℕ) := (⟨1, ![a]⟩ : Shape).Idx → EReal

/-- The words of `0.0`, `2.0` and `+∞`. -/
abbrev zeroW : EReal := Ideal.ofBits .f32 0x00000000#32
abbrev twoW : EReal := Ideal.ofBits .f32 0x40000000#32
abbrev infW : EReal := Ideal.ofBits .f32 0x7F800000#32

/-- The first layer at batch row `i`, unit `h`: the affine map clamped below at zero. -/
def hidden (X : Arr2 4096 256) (W1 : Arr2 256 1024) (b1 : Arr1 1024) (i : Fin 4096) (h : Fin 1024) : EReal :=
  max ((∑ d : Fin 256, X (ix2 i d) * W1 (ix2 d h)) + b1 (ix1 h)) zeroW

/-- The encoding of batch row `i`, coordinate `k`. -/
def enc (X : Arr2 4096 256) (W1 : Arr2 256 1024) (b1 : Arr1 1024) (W2 : Arr2 1024 256) (b2 : Arr1 256)
    (i : Fin 4096) (k : Fin 256) : EReal :=
  (∑ h : Fin 1024, hidden X W1 b1 i h * W2 (ix2 h k)) + b2 (ix1 k)

/-- The squared norm of a row of 256 coordinates. -/
def normSq (e : Fin 256 → EReal) : EReal := ∑ k : Fin 256, e k * e k

/-- The squared norm of memory row `q`, as the host sums it: from the zero word. -/
def memNormSq (M : Arr2 65536 256) (q : Fin 65536) : EReal :=
  zeroW + ∑ d : Fin 256, M (ix2 q d) * M (ix2 q d)

/-- The inner product of a row with memory row `q`. -/
def cross (e : Fin 256 → EReal) (M : Arr2 65536 256) (q : Fin 65536) : EReal :=
  ∑ d : Fin 256, e d * M (ix2 q d)

/-- The squared distance of a row to memory row `q`, in expanded form. -/
def sqdist (e : Fin 256 → EReal) (M : Arr2 65536 256) (q : Fin 65536) : EReal :=
  (normSq e + memNormSq M q) - twoW * cross e M q

/-- The clamp at zero followed by the square root: what turns a squared distance into a distance. -/
def dist (x : EReal) : EReal := Ideal.sqrt (max x zeroW)

/-- The least squared distance of a row to the memory, the minimum taken from `+∞`. -/
def minSq (e : Fin 256 → EReal) (M : Arr2 65536 256) : EReal :=
  (Finset.univ : Finset (Fin 65536)).fold min infW (sqdist e M)

/-- The score of batch row `i`. -/
def score (X : Arr2 4096 256) (W1 : Arr2 256 1024) (b1 : Arr1 1024) (W2 : Arr2 1024 256) (b2 : Arr1 256)
    (M : Arr2 65536 256) (i : Fin 4096) : EReal :=
  Ideal.tanh (dist (minSq (enc X W1 b1 W2 b2 i) M))

/-- The first result, `[4096, 1]`: the scores, one per batch row. -/
def scoreArr (X : Arr2 4096 256) (W1 : Arr2 256 1024) (b1 : Arr1 1024) (W2 : Arr2 1024 256) (b2 : Arr1 256)
    (M : Arr2 65536 256) : Arr2 4096 1 := fun j => score X W1 b1 W2 b2 M (j 0)

/-- The second result, `[4096, 256]`: the encodings. -/
def encArr (X : Arr2 4096 256) (W1 : Arr2 256 1024) (b1 : Arr1 1024) (W2 : Arr2 1024 256) (b2 : Arr1 256) :
    Arr2 4096 256 := fun j => enc X W1 b1 W2 b2 (j 0) (j 1)

end Cert.Spec

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  The seven pure values of the kernel body, each read at an index, over the extended reals.

  The encoding stage is two matrix products into a zero accumulator, each followed by a bias row added to every
  row, with a clamp below at the zero word between them; its squared row norm is a sum along the lanes kept as
  a column; the running minimum starts at the `+∞` word. The distance stage is a third product, of a row of
  the encoding with every memory row, put in the expanded square `(‖e‖² + ‖m‖²) − 2·⟨e, m⟩`, and a minimum
  along the lanes folded into the running minimum. The score is `tanh` of the square root of the clamped minimum.
  Format changes are the identity on the extended reals and a cast to the same shape is the identity.
-/
import proofs.«118759_j55087250538839_2_alg».proof.Proof.Gen.KernelIdeal.Skeleton
import proofs.«118759_j55087250538839_2_alg».proof.Proof.Spec
import proofs.«118759_j55087250538839_2_alg».proof.Proof.LibKeepdimsColumn
import proofs.«118759_j55087250538839_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Payloads

open Cert.KernelIdeal Cert.KernelIdeal.Gen Cert.Spec Idealize.ShloMosaic Idealize.ShloMosaic.ValueIdx

/-! ## The three matrix products read at an index

Each product accumulates into the zero word, so at `(r, c)` it is the sum over the one contraction coordinate of the
products of the operands' entries: the contraction index set is re-indexed by its one coordinate. -/

/-- On the left operand's free axis the operand index reads the result's row. -/
theorem mmA_lhs_free (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
/-- On the right operand's free axis the operand index reads the result's column. -/
theorem mmA_rhs_free (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl
/-- Rows by columns: `[2048, 256] × [256, 1024]` at `(r, c)` is `∑ d, A (r, d) · B (d, c)`. -/
theorem mmA_apply (A : FVec Ideal S2048x256 .bf16) (B : FVec Ideal S256x1024 .bf16) (r : Fin 2048) (c : Fin 1024) :
    matmul dot_S2048x256_S256x1024_S2048x1024_1_0_0_1_n_n none A B (constant (F := Ideal) S2048x1024 .f32 0x00000000#32) (ix2 r c)
      = ∑ d : Fin 256, A (ix2 r d) * B (ix2 d c) := by
  simp only [matmul]
  rw [Ideal.matmul_constant_zero_apply, ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 r c) ((contrEquiv1 dot_S2048x256_S256x1024_S2048x1024_1_0_0_1_n_n 256 rfl rfl).symm k) = ix2 r k := funext fun a => Fin.ext (by
    match a with
    | ⟨0, _⟩ => exact mmA_lhs_free _ _
    | ⟨1, _⟩ => exact (dot_S2048x256_S256x1024_S2048x1024_1_0_0_1_n_n.lhsIdx_val_of_single rfl _ _).trans hk)
  have er : dot_S2048x256_S256x1024_S2048x1024_1_0_0_1_n_n.rhsIdx (ix2 r c) ((contrEquiv1 dot_S2048x256_S256x1024_S2048x1024_1_0_0_1_n_n 256 rfl rfl).symm k) = ix2 k c := funext fun a => Fin.ext (by
    match a with
    | ⟨0, _⟩ => exact (dot_S2048x256_S256x1024_S2048x1024_1_0_0_1_n_n.rhsIdx_val_of_single rfl _ _).trans hk
    | ⟨1, _⟩ => exact mmA_rhs_free _ _)
  rw [el, er]

/-- On the left operand's free axis the operand index reads the result's row. -/
theorem mmB_lhs_free (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
/-- On the right operand's free axis the operand index reads the result's column. -/
theorem mmB_rhs_free (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl
/-- Rows by columns: `[2048, 1024] × [1024, 256]` at `(r, c)` is `∑ d, A (r, d) · B (d, c)`. -/
theorem mmB_apply (A : FVec Ideal S2048x1024 .bf16) (B : FVec Ideal S1024x256 .bf16) (r : Fin 2048) (c : Fin 256) :
    matmul dot_S2048x1024_S1024x256_S2048x256_1_0_0_1_n_n none A B (constant (F := Ideal) S2048x256 .f32 0x00000000#32) (ix2 r c)
      = ∑ d : Fin 1024, A (ix2 r d) * B (ix2 d c) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r c) ((contrEquiv1 dot_S2048x1024_S1024x256_S2048x256_1_0_0_1_n_n 1024 rfl rfl).symm k) = ix2 r k := funext fun a => Fin.ext (by
    match a with
    | ⟨0, _⟩ => exact mmB_lhs_free _ _
    | ⟨1, _⟩ => exact (dot_S2048x1024_S1024x256_S2048x256_1_0_0_1_n_n.lhsIdx_val_of_single rfl _ _).trans hk)
  have er : dot_S2048x1024_S1024x256_S2048x256_1_0_0_1_n_n.rhsIdx (ix2 r c) ((contrEquiv1 dot_S2048x1024_S1024x256_S2048x256_1_0_0_1_n_n 1024 rfl rfl).symm k) = ix2 k c := funext fun a => Fin.ext (by
    match a with
    | ⟨0, _⟩ => exact (dot_S2048x1024_S1024x256_S2048x256_1_0_0_1_n_n.rhsIdx_val_of_single rfl _ _).trans hk
    | ⟨1, _⟩ => exact mmB_rhs_free _ _)
  rw [el, er]

/-- On the left operand's free axis the operand index reads the result's row. -/
theorem mmC_lhs_free (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
/-- On the right operand's free axis the operand index reads the result's column. -/
theorem mmC_rhs_free (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
/-- Rows by rows: `[2048, 256]` against `[1024, 256]`, both contracted on the last axis, at `(r, c)` is `∑ d, A (r, d) · B (c, d)`. -/
theorem mmC_apply (A : FVec Ideal S2048x256 .bf16) (B : FVec Ideal S1024x256 .bf16) (r : Fin 2048) (c : Fin 1024) :
    matmul dot_S2048x256_S1024x256_S2048x1024_1_1_0_0_n_n none A B (constant (F := Ideal) S2048x1024 .f32 0x00000000#32) (ix2 r c)
      = ∑ d : Fin 256, A (ix2 r d) * B (ix2 c d) := by
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 r c) ((contrEquiv1 dot_S2048x256_S1024x256_S2048x1024_1_1_0_0_n_n 256 rfl rfl).symm k) = ix2 r k := funext fun a => Fin.ext (by
    match a with
    | ⟨0, _⟩ => exact mmC_lhs_free _ _
    | ⟨1, _⟩ => exact (dot_S2048x256_S1024x256_S2048x1024_1_1_0_0_n_n.lhsIdx_val_of_single rfl _ _).trans hk)
  have er : dot_S2048x256_S1024x256_S2048x1024_1_1_0_0_n_n.rhsIdx (ix2 r c) ((contrEquiv1 dot_S2048x256_S1024x256_S2048x1024_1_1_0_0_n_n 256 rfl rfl).symm k) = ix2 c k := funext fun a => Fin.ext (by
    match a with
    | ⟨0, _⟩ => exact mmC_rhs_free _ _
    | ⟨1, _⟩ => exact (dot_S2048x256_S1024x256_S2048x1024_1_1_0_0_n_n.rhsIdx_val_of_single rfl _ _).trans hk)
  rw [el, er]

/-! ## The two lane reductions read at an index -/

/-- A minimum along ONE axis is, at each reduced index, the fold of `min` from the accumulator's value over that
    axis's coordinates: the indices that drop to the reduced index are that index with each coordinate inserted. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `r` with lane `l` inserted is the index `(r, l)`. -/
theorem lift_lane {a b : ℕ} (h : (⟨2, ![a, b]⟩ : Shape).Reduces [1] ⟨1, ![a]⟩) (r : Fin a) (l : Fin b) :
    h.lift (ix1 r) l = ix2 r l :=
  funext fun c => Fin.ext (by
    match c with
    | ⟨0, _⟩ => rfl
    | ⟨1, _⟩ => rfl)

/-- The sum along the lanes of a `[2048, 256]` array, at row `r`. -/
theorem laneSum_apply (src : FVec Ideal S2048x256 .f32) (h : S2048x256.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ k : Fin 256, src (ix2 r k) := by
  refine (Ideal.multiReduction_add_single src 0x00000000#32 h hφ hacc (ix1 r)).trans ?_
  exact Finset.sum_congr rfl fun k _ => congrArg src (lift_lane h r k)

/-- The minimum along the lanes of a `[2048, 1024]` array from the `+∞` word, at row `r`. -/
theorem laneMin_apply (src : FVec Ideal S2048x1024 .f32) (h : S2048x1024.Reduces [1] S2048) (hφ : FKind.Formats .f32)
    (hacc : (0x7F800000#32 : BitVec 32) = 0x7F800000#32) (r : Fin 2048) :
    multiReduction (F := Ideal) .minimumf [1] S2048 src 0x7F800000#32 h hφ hacc (ix1 r)
      = (Finset.univ : Finset (Fin 1024)).fold min infW (fun l => src (ix2 r l)) := by
  refine (multiReduction_minimumf_single src 0x7F800000#32 h hφ hacc (ix1 r)).trans ?_
  have e : (src ∘ h.lift (ix1 r)) = fun l : Fin 1024 => src (ix2 r l) := funext fun l => congrArg src (lift_lane h r l)
  rw [e]
  rfl

/-! ## The payloads of the encoding stage -/

section Enc

variable (x0 : Vec Ideal S2048x256 .f32) (x1 : Vec Ideal S256x1024 .f32) (x2 : Vec Ideal S1024 .f32)
  (x3 : Vec Ideal S1024x256 .f32) (x4 : Vec Ideal S256 .f32)

/-- The encoding at `(r, k)`: the second affine layer applied to the clamped first one. -/
theorem pay3_apply (r : Fin 2048) (k : Fin 256) :
    k0_pay3 (F := Ideal) x0 x1 x2 x3 x4 (ix2 r k)
      = (∑ h : Fin 1024, max ((∑ d : Fin 256, x0 (ix2 r d) * x1 (ix2 d h)) + x2 (ix1 h)) zeroW * x3 (ix2 h k)) + x4 (ix1 k) := by
  unfold k0_pay3
  simp only [addf_apply, mmB_apply, truncf_apply, maximumf_apply, mmA_apply, broadcast_apply,
    broadcastTo_1b_ab_apply, shapeCast_a_1a_apply]
  rfl

/-- The stored f32 encoding is the encoding. -/
theorem pay4_eq : k0_pay4 (F := Ideal) x0 x1 x2 x3 x4 = k0_pay3 (F := Ideal) x0 x1 x2 x3 x4 := by
  unfold k0_pay4
  exact shapeCast_self _ _

/-- The stored bf16 encoding is, over the extended reals, the encoding. -/
theorem pay5_apply (j : S2048x256.Idx) : k0_pay5 (F := Ideal) x0 x1 x2 x3 x4 j = k0_pay3 (F := Ideal) x0 x1 x2 x3 x4 j := by
  unfold k0_pay5
  simp only [shapeCast_self]
  rfl

/-- The squared norm of row `r` of the encoding, kept as a column. -/
theorem pay6_apply (r : Fin 2048) (u : Fin 1) :
    k0_pay6 (F := Ideal) x0 x1 x2 x3 x4 (ix2 r u)
      = ∑ k : Fin 256, k0_pay3 (F := Ideal) x0 x1 x2 x3 x4 (ix2 r k) * k0_pay3 (F := Ideal) x0 x1 x2 x3 x4 (ix2 r k) := by
  unfold k0_pay6
  simp only [shapeCast_self]
  refine (Cert.LibKeepdims.shapeCast_a_a1_apply _ _ r u).trans ?_
  refine (laneSum_apply _ _ _ _ r).trans ?_
  rfl

end Enc

/-- The running minimum starts at the `+∞` word. -/
theorem pay7_apply (j : S2048x1.Idx) : k0_pay7 (F := Ideal) j = infW := by
  unfold k0_pay7
  simp only [shapeCast_self]
  rfl

/-! ## The payloads of the distance stage -/

/-- One step of the running minimum at row `r`: the old value against the least, over the 1024 memory rows of the
    block, of the expanded squared distance. -/
theorem pay1_apply (v3 : Vec Ideal S1024x256 .bf16) (v5 : Vec Ideal S2048x256 .bf16) (v7 : Vec Ideal S2048x1 .f32)
    (v8 : Vec Ideal S1x1024 .f32) (v18 : Vec Ideal S2048x1 .f32) (r : Fin 2048) (u : Fin 1) :
    k0_pay1 (F := Ideal) v3 v5 v7 v8 v18 (ix2 r u)
      = min (v18 (ix2 r u)) ((Finset.univ : Finset (Fin 1024)).fold min infW
          (fun l => (v7 (ix2 r (0 : Fin 1)) + v8 (ix2 (0 : Fin 1) l)) - twoW * ∑ d : Fin 256, v5 (ix2 r d) * v3 (ix2 l d))) := by
  unfold k0_pay1
  simp only [shapeCast_self]
  refine (minimumf_apply _ _ _).trans ?_
  refine congrArg (min (v18 (ix2 r u))) ?_
  refine (Cert.LibKeepdims.shapeCast_a_a1_apply _ _ r u).trans ?_
  refine (laneMin_apply _ _ _ _ r).trans ?_
  refine congrArg (Finset.fold min infW · Finset.univ) (funext fun l => ?_)
  simp only [subf_apply, addf_apply, mulf_apply, broadcast_apply, mmC_apply, broadcastTo_a1_ab_apply, broadcastTo_1b_ab_apply]
  rfl

/-- The score of a row from its least squared distance: clamp at the zero word, square root, `tanh`. -/
theorem pay2_apply (v26 : Vec Ideal S2048x1 .f32) (j : S2048x1.Idx) : k0_pay2 (F := Ideal) v26 j = Ideal.tanh (dist (v26 j)) := by
  unfold k0_pay2 Cert.Spec.dist
  rfl

end Cert.Payloads

end
-- ==== Proof.Blocks.lean ====
/-
  What each input window's block holds at a grid point, in the coordinates of the argument arrays.

  The grid has 2 × 64 points; point `t` works on batch rows `2048·(t / 64) … + 2047` and memory rows
  `1024·(t % 64) … + 1023`. The batch block of `x` is read at those rows; the two weight matrices and
  the two bias rows are read whole; the memory block is a block of the memory array itself (the host's
  change of float format before the call is the identity on extended reals); and the block of squared
  memory norms is a stretch of the row the host computed before the call: the zero word plus the sum of
  squares of a memory row.
-/
import proofs.«118759_j55087250538839_2_alg».proof.Proof.Gen.KernelIdeal.Frame.Runs
import proofs.«118759_j55087250538839_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The batch row of the array that row `r` of point `n`'s block is. -/
def row (n : ℕ) (h : n < cfg0.N) (r : Fin 2048) : Fin 4096 :=
  ⟨2048 * (n / 64) + r.val, by rw [show cfg0.N = 128 from N_0] at h; omega⟩

/-- The memory row that row `l` of point `n`'s memory block is. -/
def col (n : ℕ) (h : n < cfg0.N) (l : Fin 1024) : Fin 65536 :=
  ⟨1024 * (n % 64) + l.val, by omega⟩

/-- The printed index maps, decided once over the grid: the batch windows move with `t / 64`, the memory
    windows with `t % 64`, the weights and biases stay. -/
theorem idx_facts : ∀ t : Fin cfg0.N,
    win0_0.index t (0 : Fin 2) = t.val / 64 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val % 64 ∧ win0_5.index t (1 : Fin 2) = 0
    ∧ win0_6.index t (0 : Fin 2) = 0 ∧ win0_6.index t (1 : Fin 2) = t.val % 64
    ∧ win0_7.index t (0 : Fin 2) = t.val / 64 ∧ win0_7.index t (1 : Fin 2) = 0
    ∧ win0_8.index t (0 : Fin 2) = t.val / 64 ∧ win0_8.index t (1 : Fin 2) = 0 :=
  (by decide +kernel : ∀ t : Fin grid0.N, _)

/-- The batch block of `x` at point `t`. -/
theorem blk0 (c : Dev nD) (t : Fin cfg0.N) (r : Fin 2048) (d : Fin 256) :
    (iblk m c 0 t : Vec Ideal S2048x256 .f32) (ix2 r d)
      = m ((c : Thread nD τ).loc main_arg0) (ix2 (row t.val t.isLt r) d) := by
  obtain ⟨e0, e1, -⟩ := idx_facts t
  show V m c main_arg0 (((cfg0.win 0).blk t).view.emb (ix2 r d)) = _
  rw [V_main_arg0]
  refine congrArg _ (funext fun a => Fin.ext ?_)
  match a with
  | ⟨0, _⟩ => show win0_0.index t (0 : Fin 2) * 2048 + 1 * r.val = 2048 * (t.val / 64) + r.val; omega
  | ⟨1, _⟩ => show win0_0.index t (1 : Fin 2) * 256 + 1 * d.val = d.val; omega

/-- The first weight matrix, whole. -/
theorem blk1 (c : Dev nD) (t : Fin cfg0.N) (d : Fin 256) (h : Fin 1024) :
    (iblk m c 1 t : Vec Ideal S256x1024 .f32) (ix2 d h) = m ((c : Thread nD τ).loc main_arg1) (ix2 d h) := by
  obtain ⟨-, -, e0, e1, -⟩ := idx_facts t
  show V m c main_arg1 (((cfg0.win 1).blk t).view.emb (ix2 d h)) = _
  rw [V_main_arg1]
  refine congrArg _ (funext fun a => Fin.ext ?_)
  match a with
  | ⟨0, _⟩ => show win0_1.index t (0 : Fin 2) * 256 + 1 * d.val = d.val; omega
  | ⟨1, _⟩ => show win0_1.index t (1 : Fin 2) * 1024 + 1 * h.val = h.val; omega

/-- The first bias row, whole. -/
theorem blk2 (c : Dev nD) (t : Fin cfg0.N) (h : Fin 1024) :
    (iblk m c 2 t : Vec Ideal S1024 .f32) (ix1 h) = m ((c : Thread nD τ).loc main_arg2) (ix1 h) := by
  obtain ⟨-, -, -, -, e0, -⟩ := idx_facts t
  show V m c main_arg2 (((cfg0.win 2).blk t).view.emb (ix1 h)) = _
  rw [V_main_arg2]
  refine congrArg _ (funext fun a => Fin.ext ?_)
  match a with
  | ⟨0, _⟩ => show win0_2.index t (0 : Fin 1) * 1024 + 1 * h.val = h.val; omega

/-- The second weight matrix, whole. -/
theorem blk3 (c : Dev nD) (t : Fin cfg0.N) (h : Fin 1024) (k : Fin 256) :
    (iblk m c 3 t : Vec Ideal S1024x256 .f32) (ix2 h k) = m ((c : Thread nD τ).loc main_arg3) (ix2 h k) := by
  obtain ⟨-, -, -, -, -, e0, e1, -⟩ := idx_facts t
  show V m c main_arg3 (((cfg0.win 3).blk t).view.emb (ix2 h k)) = _
  rw [V_main_arg3]
  refine congrArg _ (funext fun a => Fin.ext ?_)
  match a with
  | ⟨0, _⟩ => show win0_3.index t (0 : Fin 2) * 1024 + 1 * h.val = h.val; omega
  | ⟨1, _⟩ => show win0_3.index t (1 : Fin 2) * 256 + 1 * k.val = k.val; omega

/-- The second bias row, whole. -/
theorem blk4 (c : Dev nD) (t : Fin cfg0.N) (k : Fin 256) :
    (iblk m c 4 t : Vec Ideal S256 .f32) (ix1 k) = m ((c : Thread nD τ).loc main_arg4) (ix1 k) := by
  obtain ⟨-, -, -, -, -, -, -, e0, -⟩ := idx_facts t
  show V m c main_arg4 (((cfg0.win 4).blk t).view.emb (ix1 k)) = _
  rw [V_main_arg4]
  refine congrArg _ (funext fun a => Fin.ext ?_)
  match a with
  | ⟨0, _⟩ => show win0_4.index t (0 : Fin 1) * 256 + 1 * k.val = k.val; omega

/-- The memory array as the launch holds it, at its vector type. -/
abbrev memA (c : Dev nD) : FVec Ideal S65536x256 .f32 := m ((c : Thread nD τ).loc main_arg5)

/-- The array the memory window stages is the memory array: the host's change of format is the identity. -/
theorem V_mem (c : Dev nD) (j : S65536x256.Idx) :
    (V m c main_v3 : S65536x256.Idx → EReal) j = m ((c : Thread nD τ).loc main_arg5) j := by
  have e : (V m c main_v3 : S65536x256.Idx → EReal)
      = (truncf .bf16 (memA m c) bitsLt_bf16_f32 : FVec Ideal S65536x256 .bf16) := by
    dsimp only [Gen.V, Gen.hostOps0]; after_results
  rw [e]; rfl

/-- The memory block at point `t`. -/
theorem blk5 (c : Dev nD) (t : Fin cfg0.N) (l : Fin 1024) (d : Fin 256) :
    (iblk m c 5 t : Vec Ideal S1024x256 .bf16) (ix2 l d)
      = m ((c : Thread nD τ).loc main_arg5) (ix2 (col t.val t.isLt l) d) := by
  obtain ⟨-, -, -, -, -, -, -, -, e0, e1, -⟩ := idx_facts t
  show (V m c main_v3 : S65536x256.Idx → EReal) (((cfg0.win 5).blk t).view.emb (ix2 l d)) = _
  rw [V_mem]
  refine congrArg _ (funext fun a => Fin.ext ?_)
  match a with
  | ⟨0, _⟩ => show win0_5.index t (0 : Fin 2) * 1024 + 1 * l.val = 1024 * (t.val % 64) + l.val; omega
  | ⟨1, _⟩ => show win0_5.index t (1 : Fin 2) * 256 + 1 * d.val = d.val; omega

/-- The row the host computes before the call: the sums of squares of the memory rows, from the zero word,
    laid out as one row. -/
theorem V_norms_eq (c : Dev nD) :
    (V m c main_v2 : S1x65536.Idx → EReal)
      = broadcastInDim S1x65536 ![1] bcast_S65536_S1x65536_1
          (Host.reduceAdd (F := Ideal) (mulf (memA m c) (memA m c))
            (constant (F := Ideal) S_ .f32 0x00000000#32) reducesTo_S65536x256_S65536_d1 h_S_) := by
  dsimp only [Gen.V, Gen.hostOps0]; after_results

/-- That row at memory row `q`: the zero word plus the sum of the squares of the row's 256 coordinates. -/
theorem norms_apply (A : FVec Ideal S65536x256 .f32) (q : Fin 65536) :
    broadcastInDim S1x65536 ![1] bcast_S65536_S1x65536_1
        (Host.reduceAdd (F := Ideal) (mulf A A)
          (constant (F := Ideal) S_ .f32 0x00000000#32) reducesTo_S65536x256_S65536_d1 h_S_) (ix2 (0 : Fin 1) q)
      = Spec.memNormSq A q := by
  generalize hy : mulf A A = y
  refine (broadcastInDim_apply _ bcast_S65536_S1x65536_1 _ (ix2 (0 : Fin 1) q) (ix1 q) (fun a => match a with
    | ⟨0, _⟩ => by show q.val = if (65536 : Nat) = 1 then 0 else q.val; rw [if_neg (by decide)])).trans ?_
  simp only [Host.reduceAdd, Ideal.hostReduceAdd_def]
  rw [Ideal.hostReduceAdd_single reducesTo_S65536x256_S65536_d1 (by decide)]
  unfold Spec.memNormSq
  refine congrArg₂ (· + ·) rfl (Finset.sum_congr rfl fun d _ => ?_)
  subst hy
  show A _ * A _ = A _ * A _
  congr 1 <;> exact congrArg A (funext fun a => Fin.ext (by match a with | ⟨0, _⟩ => rfl | ⟨1, _⟩ => rfl))

/-- The row of squared memory norms at memory row `q`, over the memory array. -/
theorem V_norms (c : Dev nD) (q : Fin 65536) :
    (V m c main_v2 : S1x65536.Idx → EReal) (ix2 (0 : Fin 1) q)
      = Spec.memNormSq (m ((c : Thread nD τ).loc main_arg5)) q := by
  rw [V_norms_eq]; exact norms_apply (memA m c) q

/-- The block of squared memory norms at point `t`. -/
theorem blk6 (c : Dev nD) (t : Fin cfg0.N) (l : Fin 1024) :
    (iblk m c 6 t : Vec Ideal S1x1024 .f32) (ix2 (0 : Fin 1) l)
      = Spec.memNormSq (m ((c : Thread nD τ).loc main_arg5)) (col t.val t.isLt l) := by
  obtain ⟨-, -, -, -, -, -, -, -, -, -, e0, e1, -⟩ := idx_facts t
  show (V m c main_v2 : S1x65536.Idx → EReal) (((cfg0.win 6).blk t).view.emb (ix2 (0 : Fin 1) l)) = _
  rw [← V_norms]
  refine congrArg _ (funext fun a => Fin.ext ?_)
  match a with
  | ⟨0, _⟩ => show win0_6.index t (0 : Fin 2) * 1 + 1 * 0 = 0; omega
  | ⟨1, _⟩ => show win0_6.index t (1 : Fin 2) * 1024 + 1 * l.val = 1024 * (t.val % 64) + l.val; omega

end Cert.KernelIdeal.Blocks

end
-- ==== Proof.Args.lean ====
/-
  The six argument arrays as a core holds them at launch, named, and the encoding of a batch row over them.
-/
import proofs.«118759_j55087250538839_2_alg».proof.KernelIdeal
import proofs.«118759_j55087250538839_2_alg».proof.Proof.Spec

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

/-- The batch `x`. -/
abbrev aX : Spec.Arr2 4096 256 := m ((c : Thread nD τ).loc main_arg0)
/-- The first layer's weights. -/
abbrev aW1 : Spec.Arr2 256 1024 := m ((c : Thread nD τ).loc main_arg1)
/-- The first layer's bias. -/
abbrev ab1 : Spec.Arr1 1024 := m ((c : Thread nD τ).loc main_arg2)
/-- The second layer's weights. -/
abbrev aW2 : Spec.Arr2 1024 256 := m ((c : Thread nD τ).loc main_arg3)
/-- The second layer's bias. -/
abbrev ab2 : Spec.Arr1 256 := m ((c : Thread nD τ).loc main_arg4)
/-- The memory. -/
abbrev aM : Spec.Arr2 65536 256 := m ((c : Thread nD τ).loc main_arg5)

/-- The encoding of batch row `i`, as a row of 256 coordinates. -/
def encOf (i : Fin 4096) : Fin 256 → EReal :=
  fun k => Spec.enc (aX m c) (aW1 m c) (ab1 m c) (aW2 m c) (ab2 m c) i k

end Cert.KernelIdeal.Args

end
-- ==== Proof.Glue.lean ====
/-
  The payloads over a grid point's input blocks are the specification's terms over the argument arrays.

  At point `t` the batch block holds rows `2048·(t / 64) + r` of `x`, the weights and biases are read whole, the
  memory block holds rows `1024·(t % 64) + l` of the memory and the norms block their squared norms. So the
  encoding payload at `(r, k)` is the encoding of that batch row at `k`, the squared-norm payload its squared
  norm, and one step of the running minimum takes the old value against the least expanded squared distance of the
  row's encoding to the block's 1024 memory rows.
-/
import proofs.«118759_j55087250538839_2_alg».proof.Proof.Gen.KernelIdeal.Frame.Runs
import proofs.«118759_j55087250538839_2_alg».proof.Proof.Payloads
import proofs.«118759_j55087250538839_2_alg».proof.Proof.Blocks
import proofs.«118759_j55087250538839_2_alg».proof.Proof.Args
import proofs.«118759_j55087250538839_2_alg».proof.Proof.Spec
import Idealize.ShloMosaic.Lib.ValueIdx

noncomputable section

open scoped BigOperators

namespace Cert.KernelIdeal.Glue

open Cert.KernelIdeal Cert.KernelIdeal.Gen Cert.KernelIdeal.Args Cert.KernelIdeal.Blocks Cert.Payloads
open Idealize.ShloMosaic Idealize.ShloMosaic.TcCoe Idealize.ShloMosaic.ValueIdx

variable (m : (ℓ : Loc nD τ sig) → Buf (Elt Ideal) ℓ) (c : Dev nD)

/-- The encoding payload over point `t`'s blocks, at `(r, k)`: the encoding of the block's batch row `r` at `k`. -/
theorem enc_first (t : Fin cfg0.N) (r : Fin 2048) (k : Fin 256) :
    k0_pay3 (F := Ideal) (iblk m c 0 t) (iblk m c 1 t) (iblk m c 2 t) (iblk m c 3 t) (iblk m c 4 t) (ix2 r k)
      = encOf m c (row t.val t.isLt r) k := by
  refine (pay3_apply (iblk m c 0 t) (iblk m c 1 t) (iblk m c 2 t) (iblk m c 3 t) (iblk m c 4 t) r k).trans ?_
  unfold encOf Spec.enc Spec.hidden
  refine congrArg₂ (· + ·) (Finset.sum_congr rfl fun h _ => ?_) (blk4 m c t k)
  refine congrArg₂ (· * ·) (congrArg (max · Spec.zeroW) (congrArg₂ (· + ·) (Finset.sum_congr rfl fun d _ => ?_) (blk2 m c t h)))
    (blk3 m c t h k)
  exact congrArg₂ (· * ·) (blk0 m c t r d) (blk1 m c t d h)

/-- The squared-norm payload over point `t`'s blocks, at row `r`: the squared norm of that row's encoding. -/
theorem norms_first (t : Fin cfg0.N) (r : Fin 2048) (u : Fin 1) :
    k0_pay6 (F := Ideal) (iblk m c 0 t) (iblk m c 1 t) (iblk m c 2 t) (iblk m c 3 t) (iblk m c 4 t) (ix2 r u)
      = Spec.normSq (encOf m c (row t.val t.isLt r)) := by
  refine (pay6_apply (iblk m c 0 t) (iblk m c 1 t) (iblk m c 2 t) (iblk m c 3 t) (iblk m c 4 t) r u).trans ?_
  unfold Spec.normSq
  exact Finset.sum_congr rfl fun k _ => congrArg₂ (· * ·) (enc_first m c t r k) (enc_first m c t r k)

/-- One step of the running minimum over point `t`'s memory blocks, for a row holding the encoding of batch row `i`
    and its squared norm: the old value against the least squared distance to the block's memory rows. -/
theorem min_step (t : Fin cfg0.N) (v5 : Vec Ideal S2048x256 .bf16) (v7 : Vec Ideal S2048x1 .f32) (v18 : Vec Ideal S2048x1 .f32)
    (i : Fin 4096) (r : Fin 2048) (u : Fin 1)
    (h5 : ∀ d : Fin 256, v5 (ix2 r d) = encOf m c i d) (h7 : v7 (ix2 r (0 : Fin 1)) = Spec.normSq (encOf m c i)) :
    k0_pay1 (F := Ideal) (iblk m c 5 t) v5 v7 (iblk m c 6 t) v18 (ix2 r u)
      = min (v18 (ix2 r u)) ((Finset.univ : Finset (Fin 1024)).fold min Spec.infW
          (fun l => Spec.sqdist (encOf m c i) (aM m c) (col t.val t.isLt l))) := by
  refine (pay1_apply (iblk m c 5 t) v5 v7 (iblk m c 6 t) v18 r u).trans ?_
  refine congrArg (min (v18 (ix2 r u))) ?_
  refine congrArg (Finset.fold min Spec.infW · Finset.univ) (funext fun l => ?_)
  beta_reduce
  unfold Spec.sqdist Spec.cross
  exact congrArg₂ (· - ·) (congrArg₂ (· + ·) h7 (blk6 m c t l))
    (congrArg (Spec.twoW * ·) (Finset.sum_congr rfl fun d _ => congrArg₂ (· * ·) (h5 d) (blk5 m c t l d)))

end Cert.KernelIdeal.Glue

end
-- ==== Proof.LibFoldMin.lean ====
/-
  A minimum taken as a fold of `min` from a starting value, in any linear order.

  A value is below such a minimum exactly when it is below the starting value and below every term (Mathlib's
  `Finset.le_fold_min`). Two consequences kept here: a monotone map carries the minimum of a family, starting
  value included, to the minimum of the images (what moves a square root, a clamp, an exponential … across a
  `min`-reduction); and two values with the same lower bounds are equal (what turns a running minimum known by
  its lower bounds into the fold).
-/
import Mathlib.Data.Finset.Fold
import Mathlib.Order.Monotone.Basic
import Mathlib.Order.Lattice

namespace Cert.MinLaws

/-- A monotone map commutes with a minimum folded from a starting value:
    `g (s.fold min b f) = s.fold min (g b) (g ∘ f)`. -/
theorem map_fold_min {α β ι : Type*} [LinearOrder α] [LinearOrder β] (g : α → β) (hg : Monotone g)
    (s : Finset ι) (b : α) (f : ι → α) :
    g (s.fold min b f) = s.fold min (g b) (fun i => g (f i)) := by
  classical
  induction s using Finset.induction_on with
  | empty => simp
  | insert a s ha ih => rw [Finset.fold_insert ha, Finset.fold_insert ha, hg.map_min, ih]

/-- Two values with the same lower bounds are equal. -/
theorem eq_of_le_iff {α : Type*} [PartialOrder α] {v w : α} (h : ∀ c, c ≤ v ↔ c ≤ w) : v = w :=
  le_antisymm ((h v).mp le_rfl) ((h w).mpr le_rfl)

end Cert.MinLaws
-- ==== Proof.MinRun.lean ====
/-
  A range of `1024·(j+1)` consecutive indices is the first `1024·j` of them followed by one more run of 1024; and
  a running minimum over consecutive runs of 1024 indices: if a value `v` has the lower bounds of the starting
  value `b` and of the first `1024·j` terms of a family over 65536 indices, then `min v` of the minimum (from
  `b`) of the next 1024 terms has the lower bounds of `b` and of the first `1024·(j+1)` terms.
-/
import proofs.«118759_j55087250538839_2_alg».proof.Proof.LibFoldMin
import Mathlib.Data.Fintype.Basic
import Mathlib.Data.Fintype.Card

namespace Cert.MinLaws

/-- The indices below `1024·(j+1)` are those below `1024·j` and the next run of 1024. -/
theorem forall_lt_run (j : ℕ) (hj : j < 64) (P : Fin 65536 → Prop) :
    (∀ q : Fin 65536, q.val < 1024 * (j + 1) → P q)
      ↔ (∀ q : Fin 65536, q.val < 1024 * j → P q) ∧ ∀ l : Fin 1024, P ⟨1024 * j + l.val, by omega⟩ := by
  constructor
  · intro h
    exact ⟨fun q hq => h q (by omega), fun l => h _ (by show 1024 * j + l.val < 1024 * (j + 1); omega)⟩
  · rintro ⟨h1, h2⟩ q hq
    by_cases hlt : q.val < 1024 * j
    · exact h1 q hlt
    · have := h2 ⟨q.val - 1024 * j, by omega⟩
      have e : (⟨1024 * j + (q.val - 1024 * j), by omega⟩ : Fin 65536) = q := Fin.ext (by show 1024 * j + (q.val - 1024 * j) = q.val; omega)
      rw [e] at this
      exact this

theorem le_min_run {α : Type*} [LinearOrder α] (j : ℕ) (hj : j < 64) (f : Fin 65536 → α) (b v x : α)
    (hv : x ≤ v ↔ x ≤ b ∧ ∀ q : Fin 65536, q.val < 1024 * j → x ≤ f q) :
    x ≤ min v ((Finset.univ : Finset (Fin 1024)).fold min b (fun l => f ⟨1024 * j + l.val, by omega⟩))
      ↔ x ≤ b ∧ ∀ q : Fin 65536, q.val < 1024 * (j + 1) → x ≤ f q := by
  rw [le_min_iff, hv, Finset.le_fold_min, forall_lt_run j hj (fun q => x ≤ f q)]
  simp only [Finset.mem_univ, true_implies]
  tauto

/-- The bounds over all 65536 indices are those of the minimum of the whole family from `b`. -/
theorem eq_fold_of_le_iff {α : Type*} [LinearOrder α] (f : Fin 65536 → α) (b v : α)
    (hv : ∀ x, x ≤ v ↔ x ≤ b ∧ ∀ q : Fin 65536, q.val < 1024 * (63 + 1) → x ≤ f q) :
    v = (Finset.univ : Finset (Fin 65536)).fold min b f := by
  refine eq_of_le_iff fun x => ?_
  rw [hv x, Finset.le_fold_min]
  simp only [Finset.mem_univ, true_implies]
  exact and_congr_right fun _ => ⟨fun h q => h q (by have := q.isLt; omega), fun h q _ => h q⟩

end Cert.MinLaws
-- ==== Proof.Inv.lean ====
/-
  What the four carried scratch buffers hold after every grid point, and what the two output blocks hold at
  the last point of each run of 64.

  Point `n` works on batch rows `row n r` (block `n / 64`) and is the `(n % 64)`-th memory block of its run.
  After it: the first two scratch buffers hold the encoding of those batch rows (in the two formats, one
  extended real each), the third their squared norms, and the fourth — the running minimum — has exactly the
  lower bounds of +∞ and of the squared distances to the first `1024·(n % 64 + 1)` memory rows. By induction on
  the point: a run's first point stores all four from its input blocks; a later point keeps the first three and
  folds one more memory block into the minimum. After the run's last point the minimum is over all 65536 memory
  rows, so the score block is the closing map of the least squared distance, and the encoding block is the
  stored encoding.
-/
import proofs.«118759_j55087250538839_2_alg».proof.Proof.Steps
import proofs.«118759_j55087250538839_2_alg».proof.Proof.Glue
import proofs.«118759_j55087250538839_2_alg».proof.Proof.Payloads
import proofs.«118759_j55087250538839_2_alg».proof.Proof.MinRun

noncomputable section

namespace Cert.KernelIdeal.Inv

open Cert.KernelIdeal Cert.KernelIdeal.Gen Cert.KernelIdeal.Args Cert.KernelIdeal.Blocks Cert.KernelIdeal.Steps
open Cert.KernelIdeal.Glue Cert.Payloads Cert.MinLaws
open Idealize.ShloMosaic Idealize.ShloMosaic.TcCoe Idealize.ShloMosaic.ValueIdx Idealize.SL.Sem

variable (m : (ℓ : Loc nD τ sig) → Buf (Elt Ideal) ℓ) (c : Dev nD)

/-- What holds of the four scratch buffers after point `n`. -/
structure Holds (n : ℕ) (h : n < cfg0.N) : Prop where
  enc : ∀ (r : Fin 2048) (k : Fin 256),
    ((outsAt0 m c n h).2.2.1 : Vec Ideal S2048x256 .f32) (ix2 r k) = encOf m c (row n h r) k
  encNarrow : ∀ (r : Fin 2048) (k : Fin 256),
    ((outsAt0 m c n h).2.2.2.1 : Vec Ideal S2048x256 .bf16) (ix2 r k) = encOf m c (row n h r) k
  norms : ∀ (r : Fin 2048) (u : Fin 1),
    ((outsAt0 m c n h).2.2.2.2.1 : Vec Ideal S2048x1 .f32) (ix2 r u) = Spec.normSq (encOf m c (row n h r))
  running : ∀ (r : Fin 2048) (u : Fin 1) (x : EReal),
    x ≤ ((outsAt0 m c n h).2.2.2.2.2 : Vec Ideal S2048x1 .f32) (ix2 r u)
      ↔ x ≤ Spec.infW ∧ ∀ q : Fin 65536, q.val < 1024 * (n % 64 + 1) →
          x ≤ Spec.sqdist (encOf m c (row n h r)) (aM m c) q

/-- Inside a run the batch rows do not change from one point to the next. -/
theorem row_prev (t : Fin cfg0.N) (h0 : ¬t.val % 64 = 0) (r : Fin 2048) :
    row (t.val - 1) (Nat.lt_of_le_of_lt (Nat.sub_le _ _) t.isLt) r = row t.val t.isLt r := by
  unfold row
  apply Fin.ext
  show 2048 * ((t.val - 1) / 64) + r.val = 2048 * (t.val / 64) + r.val
  omega

/-- A run's first point. -/
theorem first (t : Fin cfg0.N) (h0 : t.val % 64 = 0) : Holds m c t.val t.isLt := by
  have h1 : ¬t.val % 64 = 63 := by omega
  refine ⟨fun r k => ?_, fun r k => ?_, fun r u => ?_, fun r u x => ?_⟩
  · rw [first_enc m c t h0 h1, pay4_eq (iblk m c 0 t) (iblk m c 1 t) (iblk m c 2 t) (iblk m c 3 t) (iblk m c 4 t)]
    exact enc_first m c t r k
  · rw [first_encNarrow m c t h0 h1]
    exact (pay5_apply (iblk m c 0 t) (iblk m c 1 t) (iblk m c 2 t) (iblk m c 3 t) (iblk m c 4 t) (ix2 r k)).trans (enc_first m c t r k)
  · rw [first_norms m c t h0 h1]
    exact norms_first m c t r u
  · rw [first_min m c t h0 h1,
      min_step m c t (k0_pay5 (iblk m c 0 t) (iblk m c 1 t) (iblk m c 2 t) (iblk m c 3 t) (iblk m c 4 t)) (k0_pay6 (iblk m c 0 t) (iblk m c 1 t) (iblk m c 2 t) (iblk m c 3 t) (iblk m c 4 t)) (k0_pay7 (F := Ideal)) (row t.val t.isLt r) r u
        (fun d => (pay5_apply (iblk m c 0 t) (iblk m c 1 t) (iblk m c 2 t) (iblk m c 3 t) (iblk m c 4 t) (ix2 r d)).trans (enc_first m c t r d)) (norms_first m c t r 0)]
    refine le_min_run (t.val % 64) (by omega) (Spec.sqdist (encOf m c (row t.val t.isLt r)) (aM m c)) Spec.infW _ x ?_
    rw [pay7_apply, h0]
    exact ⟨fun h => ⟨h, fun q hq => absurd hq (by omega)⟩, fun h => h.1⟩

/-- A later point of a run, over what the point before left: the first three scratch buffers are kept and the
    running minimum takes the point's memory block. -/
theorem later (t : Fin cfg0.N) (h0 : ¬t.val % 64 = 0)
    (ih : Holds m c (t.val - 1) (Nat.lt_of_le_of_lt (Nat.sub_le _ _) t.isLt))
    (e0 : (outsAt0 m c t.val t.isLt).2.2.1 = (prev m c t).2.2.1)
    (e1 : (outsAt0 m c t.val t.isLt).2.2.2.1 = (prev m c t).2.2.2.1)
    (e2 : (outsAt0 m c t.val t.isLt).2.2.2.2.1 = (prev m c t).2.2.2.2.1)
    (e3 : (outsAt0 m c t.val t.isLt).2.2.2.2.2
      = k0_pay1 (iblk m c 5 t) (prev m c t).2.2.2.1 (prev m c t).2.2.2.2.1 (iblk m c 6 t) (prev m c t).2.2.2.2.2) :
    Holds m c t.val t.isLt := by
  refine ⟨fun r k => ?_, fun r k => ?_, fun r u => ?_, fun r u x => ?_⟩
  · rw [e0, ← row_prev t h0 r]; exact ih.enc r k
  · rw [e1, ← row_prev t h0 r]; exact ih.encNarrow r k
  · rw [e2, ← row_prev t h0 r]; exact ih.norms r u
  · rw [e3, min_step m c t (prev m c t).2.2.2.1 (prev m c t).2.2.2.2.1 (prev m c t).2.2.2.2.2 (row t.val t.isLt r) r u
        (fun d => by rw [← row_prev t h0 r]; exact ih.encNarrow r d)
        (by rw [← row_prev t h0 r]; exact ih.norms r 0)]
    refine le_min_run (t.val % 64) (by omega) (Spec.sqdist (encOf m c (row t.val t.isLt r)) (aM m c)) Spec.infW _ x ?_
    have hx := ih.running r u x
    rw [row_prev t h0 r, show (t.val - 1) % 64 + 1 = t.val % 64 by omega] at hx
    exact hx

/-- After every point. -/
theorem holds : ∀ (n : ℕ) (h : n < cfg0.N), Holds m c n h
  | 0, h => first m c ⟨0, h⟩ rfl
  | n + 1, h => by
    have ih := holds n (Nat.lt_of_succ_lt h)
    by_cases h0 : (n + 1) % 64 = 0
    · exact first m c ⟨n + 1, h⟩ h0
    · by_cases h1 : (n + 1) % 64 = 63
      · exact later m c ⟨n + 1, h⟩ h0 ih (last_enc m c ⟨n + 1, h⟩ h0 h1) (last_encNarrow m c ⟨n + 1, h⟩ h0 h1)
          (last_norms m c ⟨n + 1, h⟩ h0 h1) (last_min m c ⟨n + 1, h⟩ h0 h1)
      · exact later m c ⟨n + 1, h⟩ h0 ih (mid_enc m c ⟨n + 1, h⟩ h0 h1) (mid_encNarrow m c ⟨n + 1, h⟩ h0 h1)
          (mid_norms m c ⟨n + 1, h⟩ h0 h1) (mid_min m c ⟨n + 1, h⟩ h0 h1)

/-- The score block a run's last point stores. -/
theorem score_block (t : Fin cfg0.N) (h1 : t.val % 64 = 63) (r : Fin 2048) (u : Fin 1) :
    ((outsAt0 m c t.val t.isLt).1 : Vec Ideal S2048x1 .f32) (ix2 r u)
      = Spec.scoreArr (aX m c) (aW1 m c) (ab1 m c) (aW2 m c) (ab2 m c) (aM m c) (ix2 (row t.val t.isLt r) u) := by
  have h0 : ¬t.val % 64 = 0 := by omega
  have hmin : ((outsAt0 m c t.val t.isLt).2.2.2.2.2 : Vec Ideal S2048x1 .f32) (ix2 r u)
      = Spec.minSq (encOf m c (row t.val t.isLt r)) (aM m c) :=
    eq_fold_of_le_iff _ _ _ (fun x => by
      have hx := (holds m c t.val t.isLt).running r u x
      rw [h1] at hx
      exact hx)
  rw [last_score m c t h0 h1, ← last_min m c t h0 h1, pay2_apply ((outsAt0 m c t.val t.isLt).2.2.2.2.2) (ix2 r u), hmin]
  rfl

/-- The encoding block a run's last point stores. -/
theorem enc_block (t : Fin cfg0.N) (h1 : t.val % 64 = 63) (r : Fin 2048) (k : Fin 256) :
    ((outsAt0 m c t.val t.isLt).2.1 : Vec Ideal S2048x256 .f32) (ix2 r k)
      = Spec.encArr (aX m c) (aW1 m c) (ab1 m c) (aW2 m c) (ab2 m c) (ix2 (row t.val t.isLt r) k) := by
  have h0 : ¬t.val % 64 = 0 := by omega
  rw [last_encOut m c t h0 h1, ← row_prev t h0 r]
  exact (holds m c (t.val - 1) (Nat.lt_of_le_of_lt (Nat.sub_le _ _) t.isLt)).enc r k

end Cert.KernelIdeal.Inv

end
-- ==== Proof.Final.lean ====
/-
  From blocks to the array, for the two results.

  The score array `[4096, 1]` and the encoding array `[4096, 256]` are written back in blocks of 2048 rows, once per
  block, at the grid points `t ≡ 63 (mod 64)`: point `t` writes rows `2048·(t / 64) … 2048·(t / 64) + 2047`. If
  what such a point leaves for a window is, row by row, a function of the array's row index, the array ends holding
  that function: row `i` lies in the block of the point `64·(i / 2048) + 63`, and the two blocks tile the array.
-/
import proofs.«118759_j55087250538839_2_alg».proof.Proof.Gen.KernelIdeal.Value
import proofs.«118759_j55087250538839_2_alg».proof.Proof.Blocks
import proofs.«118759_j55087250538839_2_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.Blocks Idealize.ShloMosaic Idealize.ShloMosaic.TcCoe
open Idealize.ShloMosaic.ValueIdx

variable (m : (ℓ : Loc nD τ sig) → Buf (Elt Ideal) ℓ)

/-! ## The score array -/

/-- What a writing point leaves for the score window is its block of `S`. -/
theorem flushed_eq7 (c : Dev nD) (S : Spec.Arr2 4096 1)
    (hS : ∀ (t : Fin cfg0.N), t.val % 64 = 63 → ∀ (r : Fin 2048) (u : Fin 1),
      ((outsAt0 m c t.val t.isLt).1 : Vec Ideal S2048x1 .f32) (ix2 r u) = S (ix2 (row t.val t.isLt r) u))
    (t : Fin cfg0.N) (hf : (cfg0.win 7).flush t = true) :
    (dats m 0 c).flushed 7 t = ((cfg0.win 7).blk t).view.read (Elt Ideal) S := by
  rw [Value.flushed7]
  have h63 : t.val % 64 = 63 := (flush0_7 t).mp hf
  obtain ⟨-, -, -, -, -, -, -, -, -, -, -, -, e0, e1, -⟩ := idx_facts t
  funext y
  obtain ⟨r, u, rfl⟩ : ∃ (r : Fin 2048) (u : Fin 1), y = ix2 r u := ⟨y 0, y 1, eq_ix2 (n0 := 2048) (n1 := 1) y⟩
  show ((outsAt0 m c t.val t.isLt).1 : Vec Ideal S2048x1 .f32) (ix2 r u) = S (((cfg0.win 7).blk t).view.emb (ix2 r u))
  rw [hS t h63 r u]
  refine congrArg S (funext fun a => Fin.ext ?_)
  match a with
  | ⟨0, _⟩ => show 2048 * (t.val / 64) + r.val = win0_7.index t (0 : Fin 2) * 2048 + 1 * r.val; omega
  | ⟨1, _⟩ => show u.val = win0_7.index t (1 : Fin 2) * 1 + 1 * u.val; omega

/-- An index of the score array is in point `t`'s block iff each coordinate is in the block's range on its axis. -/
theorem mem_blk7 (t : Fin cfg0.N) (i : S4096x1.Idx) :
    i ∈ ((cfg0.win 7).blk t).view.set ↔ ∀ a : Fin 2, win0_7.index t a * S2048x1.size a ≤ (i a).val
      ∧ (i a).val < win0_7.index t a * S2048x1.size a + S2048x1.size a := by
  show i ∈ ((View.whole main_v4_0).slice (win0_7.rect t)).set ↔ _
  rw [View.set_slice_whole, Rect.mem_set_unit]
  exact Iff.rfl

/-- The score array after the run is `S`. -/
theorem final_score (c : Dev nD) (S : Spec.Arr2 4096 1)
    (hS : ∀ (t : Fin cfg0.N), t.val % 64 = 63 → ∀ (r : Fin 2048) (u : Fin 1),
      ((outsAt0 m c t.val t.isLt).1 : Vec Ideal S2048x1 .f32) (ix2 r u) = S (ix2 (row t.val t.isLt r) u)) :
    (dats m 0 c).arrAt 7 cfg0.N = S :=
  (dats m 0 c).arrAt_eq_of_cover 7 S (fun t hf => flushed_eq7 m c S hS t hf) fun i => by
    have hN : cfg0.N = 128 := N_0
    have hi0 : (i 0).val < 4096 := (i 0).isLt
    have hi1 : (i 1).val < 1 := (i 1).isLt
    have hlt : 64 * ((i 0).val / 2048) + 63 < cfg0.N := by rw [hN]; omega
    obtain ⟨-, -, -, -, -, -, -, -, -, -, -, -, e0, e1, -⟩ := idx_facts ⟨64 * ((i 0).val / 2048) + 63, hlt⟩
    refine ⟨⟨64 * ((i 0).val / 2048) + 63, hlt⟩, (flush0_7 _).mpr (by show (64 * ((i 0).val / 2048) + 63) % 64 = 63; omega), ?_⟩
    rw [mem_blk7]
    intro a
    match a with
    | ⟨0, _⟩ =>
      show win0_7.index ⟨64 * ((i 0).val / 2048) + 63, hlt⟩ (0 : Fin 2) * 2048 ≤ (i 0).val
        ∧ (i 0).val < win0_7.index ⟨64 * ((i 0).val / 2048) + 63, hlt⟩ (0 : Fin 2) * 2048 + 2048
      rw [e0]
      show (64 * ((i 0).val / 2048) + 63) / 64 * 2048 ≤ (i 0).val
        ∧ (i 0).val < (64 * ((i 0).val / 2048) + 63) / 64 * 2048 + 2048
      omega
    | ⟨1, _⟩ =>
      show win0_7.index ⟨64 * ((i 0).val / 2048) + 63, hlt⟩ (1 : Fin 2) * 1 ≤ (i 1).val
        ∧ (i 1).val < win0_7.index ⟨64 * ((i 0).val / 2048) + 63, hlt⟩ (1 : Fin 2) * 1 + 1
      rw [e1]
      omega

/-! ## The encoding array -/

/-- What a writing point leaves for the encoding window is its block of `E`. -/
theorem flushed_eq8 (c : Dev nD) (E : Spec.Arr2 4096 256)
    (hE : ∀ (t : Fin cfg0.N), t.val % 64 = 63 → ∀ (r : Fin 2048) (k : Fin 256),
      ((outsAt0 m c t.val t.isLt).2.1 : Vec Ideal S2048x256 .f32) (ix2 r k) = E (ix2 (row t.val t.isLt r) k))
    (t : Fin cfg0.N) (hf : (cfg0.win 8).flush t = true) :
    (dats m 0 c).flushed 8 t = ((cfg0.win 8).blk t).view.read (Elt Ideal) E := by
  rw [Value.flushed8]
  have h63 : t.val % 64 = 63 := (flush0_8 t).mp hf
  obtain ⟨-, -, -, -, -, -, -, -, -, -, -, -, -, -, e0, e1⟩ := idx_facts t
  funext y
  obtain ⟨r, k, rfl⟩ : ∃ (r : Fin 2048) (k : Fin 256), y = ix2 r k := ⟨y 0, y 1, eq_ix2 (n0 := 2048) (n1 := 256) y⟩
  show ((outsAt0 m c t.val t.isLt).2.1 : Vec Ideal S2048x256 .f32) (ix2 r k) = E (((cfg0.win 8).blk t).view.emb (ix2 r k))
  rw [hE t h63 r k]
  refine congrArg E (funext fun a => Fin.ext ?_)
  match a with
  | ⟨0, _⟩ => show 2048 * (t.val / 64) + r.val = win0_8.index t (0 : Fin 2) * 2048 + 1 * r.val; omega
  | ⟨1, _⟩ => show k.val = win0_8.index t (1 : Fin 2) * 256 + 1 * k.val; omega

/-- An index of the encoding array is in point `t`'s block iff each coordinate is in the block's range on its axis. -/
theorem mem_blk8 (t : Fin cfg0.N) (i : S4096x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v4_1).slice (win0_8.rect t)).set ↔ _
  rw [View.set_slice_whole, Rect.mem_set_unit]
  exact Iff.rfl

/-- The encoding array after the run is `E`. -/
theorem final_enc (c : Dev nD) (E : Spec.Arr2 4096 256)
    (hE : ∀ (t : Fin cfg0.N), t.val % 64 = 63 → ∀ (r : Fin 2048) (k : Fin 256),
      ((outsAt0 m c t.val t.isLt).2.1 : Vec Ideal S2048x256 .f32) (ix2 r k) = E (ix2 (row t.val t.isLt r) k)) :
    (dats m 0 c).arrAt 8 cfg0.N = E :=
  (dats m 0 c).arrAt_eq_of_cover 8 E (fun t hf => flushed_eq8 m c E hE t hf) fun i => by
    have hN : cfg0.N = 128 := N_0
    have hi0 : (i 0).val < 4096 := (i 0).isLt
    have hi1 : (i 1).val < 256 := (i 1).isLt
    have hlt : 64 * ((i 0).val / 2048) + 63 < cfg0.N := by rw [hN]; omega
    obtain ⟨-, -, -, -, -, -, -, -, -, -, -, -, -, -, e0, e1⟩ := idx_facts ⟨64 * ((i 0).val / 2048) + 63, hlt⟩
    refine ⟨⟨64 * ((i 0).val / 2048) + 63, hlt⟩, (flush0_8 _).mpr (by show (64 * ((i 0).val / 2048) + 63) % 64 = 63; omega), ?_⟩
    rw [mem_blk8]
    intro a
    match a with
    | ⟨0, _⟩ =>
      show win0_8.index ⟨64 * ((i 0).val / 2048) + 63, hlt⟩ (0 : Fin 2) * 2048 ≤ (i 0).val
        ∧ (i 0).val < win0_8.index ⟨64 * ((i 0).val / 2048) + 63, hlt⟩ (0 : Fin 2) * 2048 + 2048
      rw [e0]
      show (64 * ((i 0).val / 2048) + 63) / 64 * 2048 ≤ (i 0).val
        ∧ (i 0).val < (64 * ((i 0).val / 2048) + 63) / 64 * 2048 + 2048
      omega
    | ⟨1, _⟩ =>
      show win0_8.index ⟨64 * ((i 0).val / 2048) + 63, hlt⟩ (1 : Fin 2) * 256 ≤ (i 1).val
        ∧ (i 1).val < win0_8.index ⟨64 * ((i 0).val / 2048) + 63, hlt⟩ (1 : Fin 2) * 256 + 256
      rw [e1]
      omega

end Cert.KernelIdeal.Final

end
-- ==== Proof.RefIsSpec.lean ====
/-
  The reference program computes the specification.

  Read index by index, the reference's stages are the Spec's functions: the clamped first layer is `hidden`, the
  second layer is `enc`, and the squared distance of the encoding of row `i` to memory row `q` is `sqdist` in its
  expanded form `‖enc i‖² + ‖M q‖² − 2·⟨enc i, M q⟩` (the sum for `‖enc i‖²` starts from the zero word, which is the
  real zero). The reference clamps at zero and takes the square root of every squared distance BEFORE the minimum over
  the memory rows, the Spec after it; the two agree because `x ↦ √(max x 0)` is monotone on the extended reals and
  fixes the starting value `+∞`, so it commutes with a minimum folded from `+∞`.
-/
import proofs.«118759_j55087250538839_2_alg».proof.Proof.Gen.ReferenceIdeal.Read
import proofs.«118759_j55087250538839_2_alg».proof.Proof.Spec
import proofs.«118759_j55087250538839_2_alg».proof.Proof.LibFoldMin
import Idealize.ShloMosaic.Lib.ValueIdx
import Idealize.ShloMosaic.PureOps.Ideal.Laws
import Idealize.ShloMosaic.PureOps.Reduce
import Idealize.ShloMosaic.Lib.Pipeline.Value

noncomputable section

open scoped BigOperators

namespace Cert.RefIsSpec

open Cert.ReferenceIdeal Cert.ReferenceIdeal.Gen Cert.ReferenceIdeal.Read Cert.Spec
open Idealize.ShloMosaic Idealize.ShloMosaic.ValueIdx

/-! ## The reference's index maps are the coordinate constructors -/

theorem lidx_v0 (i : Fin 4096) (h : Fin 1024) (d : Fin 256) : lidx_main_v0 (ix2 i h) d = ix2 i d :=
  funext fun a => Fin.ext (by match a with | ⟨0, _⟩ => rfl | ⟨1, _⟩ => rfl)

theorem ridx_v0 (i : Fin 4096) (h : Fin 1024) (d : Fin 256) : ridx_main_v0 (ix2 i h) d = ix2 d h :=
  funext fun a => Fin.ext (by match a with | ⟨0, _⟩ => rfl | ⟨1, _⟩ => rfl)

theorem idx_v1_v2 (i : Fin 4096) (h : Fin 1024) : idx_main_v1 (idx_main_v2 (ix2 i h)) = ix1 h :=
  funext fun a => Fin.ext (by match a with | ⟨0, _⟩ => rfl)

theorem lidx_v5 (i : Fin 4096) (k : Fin 256) (h : Fin 1024) : lidx_main_v5 (ix2 i k) h = ix2 i h :=
  funext fun a => Fin.ext (by match a with | ⟨0, _⟩ => rfl | ⟨1, _⟩ => rfl)

theorem ridx_v5 (i : Fin 4096) (k : Fin 256) (h : Fin 1024) : ridx_main_v5 (ix2 i k) h = ix2 h k :=
  funext fun a => Fin.ext (by match a with | ⟨0, _⟩ => rfl | ⟨1, _⟩ => rfl)

theorem idx_v6_v7 (i : Fin 4096) (k : Fin 256) : idx_main_v6 (idx_main_v7 (ix2 i k)) = ix1 k :=
  funext fun a => Fin.ext (by match a with | ⟨0, _⟩ => rfl)

/-! ## The encoding -/

/-- The clamped first layer, read at `(i, h)`. -/
theorem hidden_read (X : Arr2 4096 256) (W1 : Arr2 256 1024) (b1 : Arr1 1024) (i : Fin 4096) (h : Fin 1024) :
    val_main_v4 (F := Ideal) X W1 b1 (ix2 i h) = hidden X W1 b1 i h := by
  rw [val_main_v4_apply, val_main_v3_apply, val_main_v0_apply, val_main_v2_apply, val_main_v1_apply,
    val_main_call0_v0_apply, val_main_call0_cst_apply, idx_v1_v2]
  simp only [lidx_v0, ridx_v0, Ideal.maximumf_def, Ideal.addf_def, Ideal.ofBits_def]
  rfl

/-- The second layer, read at `(i, k)`. -/
theorem enc_read (X : Arr2 4096 256) (W1 : Arr2 256 1024) (b1 : Arr1 1024) (W2 : Arr2 1024 256) (b2 : Arr1 256)
    (i : Fin 4096) (k : Fin 256) :
    val_main_v8 (F := Ideal) X W1 b1 W2 b2 (ix2 i k) = enc X W1 b1 W2 b2 i k := by
  rw [val_main_v8_apply, val_main_v5_apply, val_main_v7_apply, val_main_v6_apply, idx_v6_v7]
  simp only [lidx_v5, ridx_v5, hidden_read, Ideal.addf_def]
  rfl

theorem ref_enc (X : Arr2 4096 256) (W1 : Arr2 256 1024) (b1 : Arr1 1024) (W2 : Arr2 1024 256) (b2 : Arr1 256) :
    val_main_v8 (F := Ideal) X W1 b1 W2 b2 = encArr X W1 b1 W2 b2 := by
  funext j
  obtain ⟨i, k, rfl⟩ : ∃ (i : Fin 4096) (k : Fin 256), j = ix2 i k := ⟨j 0, j 1, eq_ix2 j⟩
  exact enc_read X W1 b1 W2 b2 i k

/-! ## The squared distance -/

theorem idx_v10_v11_v15 (i : Fin 4096) (q : Fin 65536) (k : Fin 256) :
    idx_main_v10 (idx_main_v11 (idx_main_v15 (ix2 i q))) k = ix2 i k :=
  funext fun a => Fin.ext (by match a with | ⟨0, _⟩ => rfl | ⟨1, _⟩ => rfl)

theorem idx_v13_v14_v16 (i : Fin 4096) (q : Fin 65536) (k : Fin 256) :
    idx_main_v13 (idx_main_v14 (idx_main_v16 (ix2 i q))) k = ix2 q k :=
  funext fun a => Fin.ext (by match a with | ⟨0, _⟩ => rfl | ⟨1, _⟩ => rfl)

theorem lidx_v19 (i : Fin 4096) (q : Fin 65536) (k : Fin 256) : lidx_main_v19 (ix2 i q) k = ix2 i k :=
  funext fun a => Fin.ext (by match a with | ⟨0, _⟩ => rfl | ⟨1, _⟩ => rfl)

theorem idx_v18_ridx_v19 (i : Fin 4096) (q : Fin 65536) (k : Fin 256) :
    idx_main_v18 (ridx_main_v19 (ix2 i q) k) = ix2 q k :=
  funext fun a => Fin.ext (by match a with | ⟨0, _⟩ => rfl | ⟨1, _⟩ => rfl)

/-- The squared norm of the encoding of row `i`, spread along the memory axis: the host's sum starts from the zero
    word, which is the real zero. -/
theorem encNorm_read (X : Arr2 4096 256) (W1 : Arr2 256 1024) (b1 : Arr1 1024) (W2 : Arr2 1024 256) (b2 : Arr1 256)
    (i : Fin 4096) (q : Fin 65536) :
    val_main_v15 (F := Ideal) X W1 b1 W2 b2 (ix2 i q) = normSq (fun k => enc X W1 b1 W2 b2 i k) := by
  rw [val_main_v15_apply, val_main_v11_apply, val_main_v10_apply, val_main_cst_apply]
  simp only [idx_v10_v11_v15, val_main_v9_apply, enc_read, Ideal.mulf_def, Ideal.ofBits_def,
    Ideal.ofBits_zero_f32, zero_add]
  rfl

/-- The squared norm of memory row `q`, spread along the batch axis. -/
theorem memNorm_read (M : Arr2 65536 256) (i : Fin 4096) (q : Fin 65536) :
    val_main_v16 (F := Ideal) M (ix2 i q) = memNormSq M q := by
  rw [val_main_v16_apply, val_main_v14_apply, val_main_v13_apply, val_main_cst_0_apply]
  simp only [idx_v13_v14_v16, val_main_v12_apply, Ideal.mulf_def, Ideal.ofBits_def]
  rfl

/-- The inner product of the encoding of row `i` with memory row `q`. -/
theorem cross_read (X : Arr2 4096 256) (W1 : Arr2 256 1024) (b1 : Arr1 1024) (W2 : Arr2 1024 256) (b2 : Arr1 256)
    (M : Arr2 65536 256) (i : Fin 4096) (q : Fin 65536) :
    val_main_v19 (F := Ideal) X W1 b1 W2 b2 M (ix2 i q) = cross (fun k => enc X W1 b1 W2 b2 i k) M q := by
  rw [val_main_v19_apply]
  simp only [lidx_v19, val_main_v18_apply, idx_v18_ridx_v19, enc_read]
  rfl

/-- The squared distance of the encoding of row `i` to memory row `q`, in expanded form. -/
theorem sqdist_read (X : Arr2 4096 256) (W1 : Arr2 256 1024) (b1 : Arr1 1024) (W2 : Arr2 1024 256) (b2 : Arr1 256)
    (M : Arr2 65536 256) (i : Fin 4096) (q : Fin 65536) :
    val_main_v22 (F := Ideal) X W1 b1 W2 b2 M (ix2 i q) = sqdist (fun k => enc X W1 b1 W2 b2 i k) M q := by
  rw [val_main_v22_apply, val_main_v17_apply, val_main_v21_apply, val_main_v20_apply, val_main_cst_1_apply,
    encNorm_read, memNorm_read, cross_read]
  rfl

/-! ## The clamp and root commute with the minimum -/

/-- The square root is monotone on the whole extended line: junk `⊥` below zero, `⊤` at `⊤`. -/
theorem sqrt_mono : Monotone Ideal.sqrt := by
  intro x y hxy
  induction x using EReal.rec with
  | bot => rw [Ideal.sqrt_bot]; exact bot_le
  | top =>
    have hy : y = ⊤ := top_le_iff.mp hxy
    rw [hy]
  | coe a =>
    induction y using EReal.rec with
    | bot => exact absurd hxy (by simp)
    | top => rw [Ideal.sqrt_top]; exact le_top
    | coe b =>
      have hab : a ≤ b := EReal.coe_le_coe_iff.mp hxy
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

theorem dist_mono : Monotone dist := fun _ _ h => sqrt_mono (max_le_max h le_rfl)

theorem infW_eq_top : infW = ⊤ := by simp [Ideal.ofBits, Ideal.ieee]

theorem dist_infW : dist infW = infW := by
  unfold Spec.dist
  rw [infW_eq_top, max_eq_left le_top, Ideal.sqrt_top]

/-! ## The score -/

theorem idx_v27 (i : Fin 4096) (u : Fin 1) : idx_main_v27 (ix2 i u) = ix1 i :=
  funext fun a => Fin.ext (by match a with | ⟨0, _⟩ => rfl)

/-- The root of the clamped squared distance, read at `(i, q)`. -/
theorem dist_read (X : Arr2 4096 256) (W1 : Arr2 256 1024) (b1 : Arr1 1024) (W2 : Arr2 1024 256) (b2 : Arr1 256)
    (M : Arr2 65536 256) (i : Fin 4096) (q : Fin 65536) :
    val_main_v25 (F := Ideal) X W1 b1 W2 b2 M (ix2 i q) = dist (sqdist (fun k => enc X W1 b1 W2 b2 i k) M q) := by
  rw [val_main_v25_apply, val_main_v24_apply, val_main_v23_apply, val_main_cst_2_apply, sqdist_read]
  rfl

/-- Row `i` with the memory coordinate `q` put back on the reduced axis is the index `(i, q)`. -/
theorem lift_eq (h : S4096x65536.Reduces [1] S4096) (i : Fin 4096) (q : Fin 65536) : h.lift (ix1 i) q = ix2 i q :=
  funext fun a => Fin.ext (by match a with | ⟨0, _⟩ => rfl | ⟨1, _⟩ => rfl)

/-- The minimum over the memory axis, read at row `i`: the fold of `min` from `+∞` over the memory rows. -/
theorem min_read (X : Arr2 4096 256) (W1 : Arr2 256 1024) (b1 : Arr1 1024) (W2 : Arr2 1024 256) (b2 : Arr1 256)
    (M : Arr2 65536 256) (i : Fin 4096) :
    val_main_v26 (F := Ideal) X W1 b1 W2 b2 M (ix1 i)
      = (Finset.univ : Finset (Fin 65536)).fold min infW
          (fun q => Spec.dist (sqdist (fun k => enc X W1 b1 W2 b2 i k) M q)) := by
  have h : S4096x65536.Reduces [1] S4096 := by decide
  unfold val_main_v26
  refine (Host.reduce_eq_fold_single FloatOps.minimumf _ _ reducesTo_S4096x65536_S4096_d1 h h_S_ (ix1 i)).trans ?_
  refine Finset.fold_congr (fun q _ => ?_)
  exact (congrArg (val_main_v25 (F := Ideal) X W1 b1 W2 b2 M) (lift_eq h i q)).trans (dist_read X W1 b1 W2 b2 M i q)

theorem ref_score (X : Arr2 4096 256) (W1 : Arr2 256 1024) (b1 : Arr1 1024) (W2 : Arr2 1024 256) (b2 : Arr1 256)
    (M : Arr2 65536 256) :
    val_main_v28 (F := Ideal) X W1 b1 W2 b2 M = scoreArr X W1 b1 W2 b2 M := by
  funext j
  obtain ⟨i, u, rfl⟩ : ∃ (i : Fin 4096) (u : Fin 1), j = ix2 i u := ⟨j 0, j 1, eq_ix2 j⟩
  rw [val_main_v28_apply, val_main_v27_apply, idx_v27, min_read, Ideal.hostUnary_tanh_def]
  show Ideal.tanh _ = Ideal.tanh (Spec.dist (minSq (enc X W1 b1 W2 b2 i) M))
  unfold minSq
  rw [Cert.MinLaws.map_fold_min Spec.dist dist_mono, dist_infW]

end Cert.RefIsSpec

end
-- ==== Proof.lean ====
/-
  The certificate of a fused encoder-and-nearest-memory kernel against its plain reference, over the extended reals.

  Both programs encode each of 4096 batch rows by two affine layers with a clamp at zero between them, and score a
  row by `tanh` of its distance to the nearest of 65536 memory rows, the squared distance written as
  `‖e‖² + ‖q‖² − 2·⟨e, q⟩`. The reference takes the square root (after a clamp at zero) of every squared distance
  and then the minimum over the memory; the kernel walks the memory in 64 blocks of 1024 rows per batch block,
  keeps a running minimum of the SQUARED distances from +∞, and applies the clamp and the root once, at the last
  block. The two agree because `x ↦ √(max x 0)` is monotone on the extended reals and fixes +∞, so it commutes with
  the minimum; the rest is that a minimum over 65536 rows is the minimum of the minima of its 64 runs, and that
  changes of float format, the tiling of the batch and the order of the sums do not matter to extended reals.

  The kernel's side: the contents of the carried scratch buffers after every grid point by induction on the point
  (Proof/Inv.lean, over the body's stores read as pure terms, Proof/Pieces.lean and Proof/Steps.lean, the terms read
  at an index, Proof/Payloads.lean, and the input blocks read off the arrays, Proof/Blocks.lean and Proof/Glue.lean),
  then the two result arrays from the blocks the last point of each run writes back (Proof/Final.lean). The
  reference's side: its run read one operation at a time (Proof/RefIsSpec.lean). Both sides meet in one
  specification (Proof/Spec.lean). The three frames are the generated frame proofs and the reference's run; the
  idealization rewrote nothing.
-/
import proofs.«118759_j55087250538839_2_alg».proof.Defs
import proofs.«118759_j55087250538839_2_alg».proof.Proof.Gen.Kernel
import proofs.«118759_j55087250538839_2_alg».proof.Proof.Gen.Kernel.Frame
import proofs.«118759_j55087250538839_2_alg».proof.Proof.Gen.KernelIdeal
import proofs.«118759_j55087250538839_2_alg».proof.Proof.Gen.KernelIdeal.Frame
import proofs.«118759_j55087250538839_2_alg».proof.Proof.Gen.KernelIdeal.Value
import proofs.«118759_j55087250538839_2_alg».proof.Proof.Gen.ReferenceIdeal
import proofs.«118759_j55087250538839_2_alg».proof.Proof.Gen.ReferenceIdeal.Run
import proofs.«118759_j55087250538839_2_alg».proof.Proof.Gen.ReferenceIdeal.Read
import proofs.«118759_j55087250538839_2_alg».proof.Proof.Gen.Pre_finite_inputs
import proofs.«118759_j55087250538839_2_alg».proof.Proof.Inv
import proofs.«118759_j55087250538839_2_alg».proof.Proof.Final
import proofs.«118759_j55087250538839_2_alg».proof.Proof.RefIsSpec
import Idealize.ShloMosaic.Adequacy
import Idealize.ShloMosaic.Init

noncomputable section

namespace Cert.Proof

open Idealize.ShloMosaic Idealize.ShloMosaic.TcCoe Idealize.SL.Sem
open Cert.KernelIdeal.Args

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealized kernel's run: the score array and the encoding array are the specification's functions of the
    argument arrays, and the arguments are unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4_0)
            = Spec.scoreArr (aX m c) (aW1 m c) (ab1 m c) (aW2 m c) (ab2 m c) (aM m c)
        ∧ r.2.mem ((c.tc : Thread Cert.KernelIdeal.nD Cert.KernelIdeal.τ).loc Cert.KernelIdeal.main_v4_1)
            = Spec.encArr (aX m c) (aW1 m c) (ab1 m c) (aW2 m c) (ab2 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.Final.final_score m c _ (Cert.KernelIdeal.Inv.score_block m c)),
      (h c).2.1.trans (Cert.KernelIdeal.Final.final_enc m c _ (Cert.KernelIdeal.Inv.enc_block m c)),
      (h c).2.2⟩)
    (Cert.KernelIdeal.Value.run_blocks m ρ)

/-- At the extended reals the kernel's two result arrays and the reference's are the same functions of arguments
    that agree. -/
theorem algebraic : Cert.algebraic_KernelIdeal_ReferenceIdeal := by
  intro m ρ m' ρ' _ hagree
  refine ⟨fun c => Spec.scoreArr (aX m c) (aW1 m c) (ab1 m c) (aW2 m c) (ab2 m c) (aM m c),
    fun c => Spec.encArr (aX m c) (aW1 m c) (ab1 m c) (aW2 m c) (ab2 m c), kernel_run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5⟩ := hagree c
    rw [(h c).1, Cert.ReferenceIdeal.Read.val_main_v28_eq, Cert.RefIsSpec.ref_score, a0, a1, a2, a3, a4, a5]
  · obtain ⟨a0, a1, a2, a3, a4, a5⟩ := hagree c
    rw [(h c).2.1, Cert.ReferenceIdeal.Read.val_main_v8_eq, Cert.RefIsSpec.ref_enc, a0, a1, a2, a3, a4]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
